-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x128 .f32) (main_arg1 : IVec S8192x8192 32) (main_arg2 : FVec F S128x64 .f32) (main_arg3 : FVec F S128x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S64x1 : Shape := ⟨2, ![64, 1]⟩
abbrev S8192x64 : Shape := ⟨2, ![8192, 64]⟩
abbrev S8192x1 : Shape := ⟨2, ![8192, 1]⟩
abbrev S1024x128 : Shape := ⟨2, ![1024, 128]⟩
abbrev S1024x64 : Shape := ⟨2, ![1024, 64]⟩
abbrev S1024x1 : Shape := ⟨2, ![1024, 1]⟩
abbrev S1x8192 : Shape := ⟨2, ![1, 8192]⟩
abbrev S512x1 : Shape := ⟨2, ![512, 1]⟩
abbrev S1x4096 : Shape := ⟨2, ![1, 4096]⟩
abbrev S512x4096 : Shape := ⟨2, ![512, 4096]⟩
abbrev S512x64 : Shape := ⟨2, ![512, 64]⟩
abbrev S512 : Shape := ⟨1, ![512]⟩
abbrev S4096x64 : Shape := ⟨2, ![4096, 64]⟩

abbrev nBuf : Space → Nat
  | .hbm => 11
  | .vmem => 23
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x64, .f32⟩
  | .hbm, ⟨3, _⟩ => ⟨S128x1, .f32⟩
  | .hbm, ⟨4, _⟩ => ⟨S64x1, .f32⟩
  | .hbm, ⟨5, _⟩ => ⟨S64x1, .f32⟩
  | .hbm, ⟨6, _⟩ => ⟨S8192x64, .bf16⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x64, .f32⟩
  | .local _ .vmem, ⟨0, _⟩ => ⟨S1024x128, .f32⟩
  | .local _ .vmem, ⟨1, _⟩ => ⟨S1024x128, .f32⟩
  | .local _ .vmem, ⟨2, _⟩ => ⟨S128x64, .f32⟩
  | .local _ .vmem, ⟨3, _⟩ => ⟨S64x1, .f32⟩
  | .local _ .vmem, ⟨4, _⟩ => ⟨S64x1, .f32⟩
  | .local _ .vmem, ⟨5, _⟩ => ⟨S1024x64, .bf16⟩
  | .local _ .vmem, ⟨6, _⟩ => ⟨S1024x64, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S512x1, .f32⟩
  | .local _ .vmem, ⟨12, _⟩ => ⟨S512x1, .f32⟩
  | .local _ .vmem, ⟨13, _⟩ => ⟨S1x4096, .f32⟩
  | .local _ .vmem, ⟨14, _⟩ => ⟨S1x4096, .f32⟩
  | .local _ .vmem, ⟨15, _⟩ => ⟨S512x4096, .i32⟩
  | .local _ .vmem, ⟨16, _⟩ => ⟨S512x4096, .i32⟩
  | .local _ .vmem, ⟨17, _⟩ => ⟨S8192x64, .bf16⟩
  | .local _ .vmem, ⟨18, _⟩ => ⟨S512x64, .f32⟩
  | .local _ .vmem, ⟨19, _⟩ => ⟨S512x64, .f32⟩
  | .local _ .vmem, ⟨20, _⟩ => ⟨S512x1, .f32⟩
  | .local _ .vmem, ⟨21, _⟩ => ⟨S512x1, .f32⟩
  | .local _ .vmem, ⟨22, _⟩ => ⟨S512x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 2], ![false, false]⟩

def k1_mult1 (i : grid1.Coords) : BitVec 32 :=
  let arg1 : BitVec 32 := BitVec.ofNat 32 (i 1).val
  let c4096_i32 : BitVec 32 := 4096#32
  let v38 : BitVec 32 := Scalar.muli arg1 c4096_i32
  v38
def k1_off1 (i : grid1.Coords) : Fin 2 → Nat :=
  let arg1 : BitVec 32 := BitVec.ofNat 32 (i 1).val
  let c4096_i32 : BitVec 32 := 4096#32
  let v38 : BitVec 32 := Scalar.muli arg1 c4096_i32
  let v39 : BitVec 32 := v38
  let v40 : Index := Scalar.indexCast v39
  let c0_19 : Index := 0#32
  ![v40.toNat, 0]
def k1_cond2 (i : grid1.Coords) : BitVec 1 :=
  let arg1 : BitVec 32 := BitVec.ofNat 32 (i 1).val
  let c1_i32 : BitVec 32 := 1#32
  let v55 : BitVec 1 := Scalar.cmpi .eq arg1 c1_i32
  let v56 : BitVec 32 := Scalar.extui v55
  let c0_i32_27 : BitVec 32 := 0#32
  let v57 : BitVec 1 := Scalar.cmpi .ne v56 c0_i32_27
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S128x1_S64x1_0_0 : S128x1.Slices ![0, 0] S64x1
  slices_S128x1_S64x1_64_0 : S128x1.Slices ![64, 0] S64x1
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  h_S4096x64 : 0 < S4096x64.numel
  shapeCasts_S4096x64_S4096x64 : S4096x64.ShapeCasts S4096x64
  broadcasts_S512x1_S512x64 : S512x1.Broadcasts S512x64
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .bf16 = 32 ∨ (Rect.block (s := S8192x64) S1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x8192.size a
  hwx1_1 : ∀ i : grid1.Coords, EltTy.bits .f32 = 32 ∨ (Rect.block (s := S1x8192) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S8192x8192.size a
  hwx1_2 : ∀ i : grid1.Coords, EltTy.bits .i32 = 32 ∨ (Rect.block (s := S8192x8192) S512x4096.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .bf16 = 32 ∨ (Rect.block (s := S8192x64) S8192x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S8192x64.size a
  hwx1_4 : ∀ i : grid1.Coords, EltTy.bits .f32 = 32 ∨ (Rect.block (s := S8192x64) S512x64.size (cc1_transform_4 i) (hinb1_4 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S8192x64 : Shape := ⟨2, ![8192, 64]⟩
abbrev S64x1 : Shape := ⟨2, ![64, 1]⟩
abbrev S64 : Shape := ⟨1, ![64]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S8192x1, .f32⟩
  | .hbm, ⟨11, _⟩ => ⟨S64x1, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x64, .f32⟩
  | .hbm, ⟨47, _⟩ => ⟨S_, .f32⟩
  | .hbm, ⟨48, _⟩ => ⟨S8192x64, .f32⟩
  | .hbm, ⟨49, _⟩ => ⟨S8192x64, .i1⟩
  | .hbm, ⟨50, _⟩ => ⟨S_, .f32⟩
  | .hbm, ⟨51, _⟩ => ⟨S8192x64, .f32⟩
  | .hbm, ⟨52, _⟩ => ⟨S8192x64, .i1⟩
  | .hbm, ⟨53, _⟩ => ⟨S_, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S_, .f32⟩
  | .hbm, ⟨59, _⟩ => ⟨S8192x64, .f32⟩
  | .hbm, ⟨60, _⟩ => ⟨S8192x64, .f32⟩
  | .hbm, ⟨61, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_cst_1 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_v4 : Ref sig .tc := ⟨.hbm, 56, rfl⟩
abbrev main_call2_v5 : Ref sig .tc := ⟨.hbm, 57, rfl⟩
abbrev main_call2_cst_2 : Ref sig .tc := ⟨.hbm, 58, rfl⟩
abbrev main_call2_v6 : Ref sig .tc := ⟨.hbm, 59, rfl⟩
abbrev main_call2_v7 : Ref sig .tc := ⟨.hbm, 60, rfl⟩
abbrev main_v29 : Ref sig .tc := ⟨.hbm, 61, rfl⟩

abbrev nD : Nat := 1
abbrev τ : Topo := Topo.v7x

variable {F : FTy → Type} [FloatOps F]

class Facts₀ : Prop where
  slices_S128x1_S64x1_0_0 : S128x1.Slices ![0, 0] S64x1
  shapeCasts_S64x1_S64 : S64x1.ShapeCasts S64
  slices_S128x1_S64x1_64_0 : S128x1.Slices ![64, 0] S64x1
  bcast_S64_S64x1_0 : S64.BroadcastsInDim S64x1 (![0] : Fin 1 → Fin S64x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.Reg0.lean ====
import proofs.«132961_j14972255994171_2_alg».proof.Proof.Gen.Kernel.Launch
import proofs.«132961_j14972255994171_2_alg».proof.Proof.Gen.Kernel.Skeleton
import proofs.«132961_j14972255994171_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this region's half is stated at
variable (V : (c : Dev nD) → (b : Ref sig .tc) → Buf (Elt F) ((c : Thread nD τ).loc b))

/-! # Region 0 of @main: the first kernel (pipeline 0), Wh = h·W with its two projections, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched window's
    block index has not moved, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): an unfetched window's
    block index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): an unfetched window's
    block index has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): an unfetched window's
    block index has not moved, so the buffer still holds this point's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each store writes its whole block -/

abbrev r0_4 : Rect S1024x64 := Rect.unit (s := S1024x64) ![0, 0] S1024x64.size inb_S1024x64_S1024x64_0_0
abbrev r0_5 : Rect S1024x1 := Rect.unit (s := S1024x1) ![0, 0] S1024x1.size inb_S1024x1_S1024x1_0_0

/-! ## What the body leaves in each output window's buffer -/

/-- Window 4's staging buffer after the body: the rounded product of the row block and the weights, its one store. -/
def out0_4 (x0 : Vec F S1024x128 .f32) (x1 : Vec F S128x64 .f32) : Vec F S1024x64 .bf16 :=
  View.canon [⟨r0_4, k0_pay2 (View.ld x0 (Rect.unit (s := S1024x128) ![0, 0] S1024x128.size inb_S1024x128_S1024x128_0_0)) (View.ld x1 (Rect.unit (s := S128x64) ![0, 0] S128x64.size inb_S128x64_S128x64_0_0))⟩]

/-- Window 5's staging buffer after the body: the unrounded product times the first projection vector. -/
def out0_5 (x0 : Vec F S1024x128 .f32) (x1 : Vec F S128x64 .f32) (x2 : Vec F S64x1 .f32) : Vec F S1024x1 .f32 :=
  View.canon [⟨r0_5, k0_pay3 (View.ld x0 (Rect.unit (s := S1024x128) ![0, 0] S1024x128.size inb_S1024x128_S1024x128_0_0)) (View.ld x1 (Rect.unit (s := S128x64) ![0, 0] S128x64.size inb_S128x64_S128x64_0_0)) (View.ld x2 (Rect.unit (s := S64x1) ![0, 0] S64x1.size inb_S64x1_S64x1_0_0))⟩]

/-- Window 6's staging buffer after the body: the unrounded product times the second projection vector. -/
def out0_6 (x0 : Vec F S1024x128 .f32) (x1 : Vec F S128x64 .f32) (x3 : Vec F S64x1 .f32) : Vec F S1024x1 .f32 :=
  View.canon [⟨r0_5, k0_pay4 (View.ld x0 (Rect.unit (s := S1024x128) ![0, 0] S1024x128.size inb_S1024x128_S1024x128_0_0)) (View.ld x1 (Rect.unit (s := S128x64) ![0, 0] S128x64.size inb_S128x64_S128x64_0_0)) (View.ld x3 (Rect.unit (s := S64x1) ![0, 0] S64x1.size inb_S64x1_S64x1_0_0))⟩]

/-- A whole-block store covers the buffer. -/
theorem cover0_4 (p0 : Vec F S1024x64 .bf16) (y : S1024x64.Idx) :
    ∃ pc ∈ ([⟨r0_4, p0⟩] : List (View.Piece (Elt F) S1024x64 .bf16)), y ∈ pc.1.set :=
  View.cover_of_tiled [⟨r0_4, p0⟩] S1024x64.size (by rfl) y

theorem cover0_5 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-! ## The body's triple -/

set_option maxHeartbeats 1000000 in
/-- The kernel body on whole staging memrefs, the inputs' at read contents and the outputs' at anything, runs to the
    continuation holding the inputs' as they were and each output's at `out0_W` of the inputs'. Each output buffer is
    also read just before it is overwritten; the value read is used nowhere. -/
theorem sound_kernel0 (c : Dev nD) (E : Set ℕ) (i : grid0.Coords)
    (arg1 : Memref sig .tc .vmem S1024x128 .f32) (harg1 : arg1.IsWhole) (arg2 : Memref sig .tc .vmem S128x64 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S1024x64 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x128 .f32) (x1 : Vec F S128x64 .f32) (x2 : Vec F S64x1 .f32) (x3 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2) ∗ owns (c : Thread nD τ) arg7 fullShare (out0_6 x0 x1 x3)) -∗ K ⟨⟩))
      ⊢ wp frame (wpE (defs₀ (F := F)) Variants.none c none) E (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The pipeline's proof data -/

/-- The proof data of pipeline 0 on core `c`: the arrays as the region finds them (`V`); after the body at point `t`
    each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple gives each output's buffer at
    its payload of those blocks; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Reg1Base.lean ====
import proofs.«132961_j14972255994171_2_alg».proof.Proof.Gen.Kernel.Launch
import proofs.«132961_j14972255994171_2_alg».proof.Proof.Gen.Kernel.Skeleton
import proofs.«132961_j14972255994171_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call (the attention kernel, pipeline 1), at the contents `V` the region is entered with:
    what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the key/value tile is the first of its row: the running maximum,
    the running sum and the accumulator are reset), from the grid coordinates. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second `scf.if` (the key/value tile is the last of its row: the normalised,
    activated row block is stored), from the grid coordinates. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the even points the output window is idle: the body stores nothing into it. -/
theorem idleAt1_4_A : ∀ t : Fin cfg1.N, cond1_0 (grid1.coords t) → ¬cond1_1 (grid1.coords t) → cfg1.idle 4 (grid1.coords t) = true := by decide +kernel
/-- At the even points the pipeline does not write the output window's block back. -/
theorem noFlush1_4_A : ∀ t : Fin cfg1.N, cond1_0 (grid1.coords t) → ¬cond1_1 (grid1.coords t) → (cfg1.win 4).flush t = false := by decide +kernel
/-- At the odd points the output window is live: the body stores into it. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S512x64 .f32 := (Memref.whole cc1_stg4_0 : Memref sig .tc .vmem S512x64 .f32).view
/-- Each window's current staging memref at point `t`, spelled as the pipeline passes it, and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
/-- The scratch operands (running maximum, running sum, accumulator): whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
/-- The same as views: what each holds is stated through it. -/
abbrev VS1_0 : View sig .tc .vmem S512x1 .f32 := scM1_0.view
abbrev VS1_1 : View sig .tc .vmem S512x1 .f32 := scM1_1.view
abbrev VS1_2 : View sig .tc .vmem S512x64 .f32 := scM1_2.view

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The region's invariant before its first point, with the scratch operands as memrefs owned at some contents:
    the first kernel call's staging buffers pass through untouched. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.Reg1RunA.lean ====
import proofs.«132961_j14972255994171_2_alg».proof.Proof.K.Reg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the scratch operands, as pieces (last first), at a point whose key/value tile is the
    FIRST of its row (first `scf.if` taken, second not), with the proof that on whole memrefs — the inputs' at their
    contents, the output's at contents `xi4` handed back untouched, the scratch at anything — the body runs to the
    continuation holding the inputs' as they were and each scratch with its pieces written. -/
noncomputable def kernelRun1_A (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) :
    Σ' (L4 : List (View.Piece (Elt F) S512x64 .f32)) (LS0 : List (View.Piece (Elt F) S512x1 .f32)) (LS1 : List (View.Piece (Elt F) S512x1 .f32)), { LS2 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__gat_kernel_eq_skeleton]; unfold cc1__gat_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Reg1RunB.lean ====
import proofs.«132961_j14972255994171_2_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the scratch operands, as pieces (last first), at a
    point whose key/value tile is the LAST of its row (first `scf.if` not taken, second taken), with the proof that on
    whole memrefs — the inputs' at their contents, the output's at anything, the scratch at the contents `xs·` the point
    before left — the body runs to the continuation holding the inputs' as they were and the output's buffer and each
    scratch with its pieces written. -/
noncomputable def kernelRun1_B (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) :
    Σ' (L4 : List (View.Piece (Elt F) S512x64 .f32)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨?_, ?_, ?_, ?_, fun E K => ?run⟩
  case run =>
    simp only [cc1__gat_kernel_eq_skeleton]; unfold cc1__gat_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Reg1Defs.lean ====
import proofs.«132961_j14972255994171_2_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call at the entry contents `V`: what its buffers hold point by point, and the proof data -/

/-! ## What each case leaves -/

/-- At a first tile the body stores nothing into the output window (idle there and not written back): no pieces; its
    value is never read. -/
def out1_A_4 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x64 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- At a first tile the pieces stored into the running maximum (the reset, then the update) cover it. -/
theorem scover1_A_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x1.size (by sl_kernel_rfl) y

/-- What a first tile leaves in the running maximum: its pieces read back over junk. -/
def sout1_A_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- At a first tile the pieces stored into the running sum (the reset, then the update) cover it. -/
theorem scover1_A_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S512x1.size (by sl_kernel_rfl) y

/-- What a first tile leaves in the running sum: its pieces read back over junk. -/
def sout1_A_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- At a first tile the pieces stored into the accumulator (the reset, then the update) cover it. -/
theorem scover1_A_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) (y : S512x64.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S512x64.size (by sl_kernel_rfl) y

/-- What a first tile leaves in the accumulator: its pieces read back over junk. -/
def sout1_A_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x64 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- At a last tile the one store into the output window covers its block. -/
theorem cover1_B_4 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x64.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1 S512x64.size (by sl_kernel_rfl) y

/-- What a last tile leaves in the output window's staging buffer: its pieces read back over junk. -/
def out1_B_4 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x64 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- At a last tile the piece stored into the running maximum covers it. -/
theorem scover1_B_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What a last tile leaves in the running maximum: its pieces read back over junk. -/
def sout1_B_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- At a last tile the piece stored into the running sum covers it. -/
theorem scover1_B_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What a last tile leaves in the running sum: its pieces read back over junk. -/
def sout1_B_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- At a last tile the piece stored into the accumulator covers it. -/
theorem scover1_B_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x64.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S512x64.size (by sl_kernel_rfl) y

/-- What a last tile leaves in the accumulator: its pieces read back over junk. -/
def sout1_B_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x64 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-! ## The conditions at a point, from its parity -/

theorem cond1_0_of_even (t : Fin cfg1.N) (h0 : t.val % 2 = 0) : cond1_0 (grid1.coords t) := (hcond1_0 t).mpr h0
theorem not_cond1_1_of_even (t : Fin cfg1.N) (h0 : t.val % 2 = 0) : ¬cond1_1 (grid1.coords t) := fun h => by
  have h1 := (hcond1_1 t).mp h; omega
theorem not_cond1_0_of_odd (t : Fin cfg1.N) (h0 : ¬t.val % 2 = 0) : ¬cond1_0 (grid1.coords t) := fun h => h0 ((hcond1_0 t).mp h)
theorem cond1_1_of_odd (t : Fin cfg1.N) (h0 : ¬t.val % 2 = 0) : cond1_1 (grid1.coords t) := (hcond1_1 t).mpr (by omega)

/-! ## What the buffers hold after each point -/

/-- THE ACCUMULATION. What the output window's staging buffer and the three scratch operands hold after the body at
    position `n` (output, running maximum, running sum, accumulator): at an even point the first-tile case, run at the
    point's memrefs and input blocks (the scratch is reset there, so nothing of the point before is read); at an odd point
    the last-tile case over what the point before left in the scratch. -/
def outsAt1 (c : Dev nD) : (n : ℕ) → n < cfg1.N → Vec F S512x64 .f32 × Vec F S512x1 .f32 × Vec F S512x1 .f32 × Vec F S512x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at an even point (the first key/value tile of a row): that case's contents. -/
theorem outsAt1_first (c : Dev nD) (t : Fin cfg1.N) (h0 : t.val % 2 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an odd point (the last key/value tile of a row): that case's contents, over what the point before left. -/
theorem outsAt1_last (c : Dev nD) (t : Fin cfg1.N) (h0 : ¬t.val % 2 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point every scoped buffer that is no staging buffer
    of this kernel call, at anything; afterwards the first kernel call's staging buffers at anything, the
    three scratch operands at what the point before left in them, and the generator register at some state. -/
def PhiS1 (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.K.Reg1Body.lean ====
import proofs.«132961_j14972255994171_2_alg».proof.Proof.K.Reg1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call at the entry contents `V`: the body obligation and the invariant's two ends -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's parity says which case it is in, so the body
    behaves as that case describes; the invariant hands the body the three scratch operands at what the point before left (at anything at the
    first point) and the first kernel call's staging buffers, which pass through, and takes the scratch back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · rw [Dat.leavesExact_idle (dat1 V c) 4 t (idleAt1_4_A t (cond1_0_of_even t h0) (not_cond1_1_of_even t h0)) (noFlush1_4_A t (cond1_0_of_even t h0) (not_cond1_1_of_even t h0))]
    rw [outsAt1_first V c t h0]
    unfold sout1_A_0 sout1_A_1 sout1_A_2; (try dsimp only)
    by_cases hz : t.val = 0
    · rw [PhiS1_castSucc V c t, PhiS1_zero V c _ _ hz, PhiA1_eq]
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ (cond1_0_of_even t h0) (not_cond1_1_of_even t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [A0 A1 A2 A3 A4 A5 A6 A7 A8 A9 A10 HS0 HS1 HS2 Hg]
      · isplitl [A0 A1 A2 A3 A4 A5 A6 A7 A8 A9 A10 HS0 HS1 HS2]
        · skip
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ (cond1_0_of_even t h0) (not_cond1_1_of_even t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [A0 A1 A2 A3 A4 A5 A6 A7 A8 A9 A10 HS0 HS1 HS2 Hg]
      · isplitl [A0 A1 A2 A3 A4 A5 A6 A7 A8 A9 A10 HS0 HS1 HS2]
        · skip
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (ms1_4 t) fullShare ((dat1 V c).after 4 t) from by
      unfold Dat.leavesExact; rw [liveAt1_4_B t (not_cond1_0_of_odd t h0) (cond1_1_of_odd t h0)], after1_4]
    rw [outsAt1_last V c t h0]
    unfold out1_B_4 sout1_B_0 sout1_B_1 sout1_B_2; (try dsimp only)
    have hz : t.val ≠ 0 := fun h => h0 (by rw [h])
    · rw [PhiS1_castSucc V c t, PhiS1_pos V c _ _ hz]
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ (not_cond1_0_of_odd t h0) (cond1_1_of_odd t h0) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [A0 A1 A2 A3 A4 A5 A6 A7 A8 A9 A10 HS0 HS1 HS2 Hg]
      · isplitl [A0 A1 A2 A3 A4 A5 A6 A7 A8 A9 A10 HS0 HS1 HS2]
        · skip
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back the plain invariant the launch handed in: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨A0, A1, A2, A3, A4, A5, A6, A7, A8, A9, A10, HS0, HS1, HS2⟩, Hg⟩
  isplitl [A0 A1 A2 A3 A4 A5 A6 A7 A8 A9 A10 HS0 HS1 HS2]
  · skip
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Run.lean ====
import proofs.«132961_j14972255994171_2_alg».proof.Proof.Gen.Kernel.Launch
import proofs.«132961_j14972255994171_2_alg».proof.Proof.Gen.Kernel.Skeleton
import proofs.«132961_j14972255994171_2_alg».proof.Proof.Gen.Kernel.Points
import proofs.«132961_j14972255994171_2_alg».proof.Proof.K.Reg0
import proofs.«132961_j14972255994171_2_alg».proof.Proof.K.Reg1Defs
import proofs.«132961_j14972255994171_2_alg».proof.Proof.K.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the two slices of the attention vector (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the column term to a row (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (a region reads it through an
    input window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ### What each region finds in its windows' arrays -/

/-- Region 0 finds the feature rows and the weights as launched: the two slices write neither. -/
theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem V1_main_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- and each projection vector at its half of the launched attention vector. -/
theorem V1_main_v0 (c : Dev nD) : V1 m ρ c main_v0
    = extractStridedSlice S64x1 ![0, 0] (m ((c : Thread nD τ).loc main_arg3)) slices_S128x1_S64x1_0_0 := by
  show StableHlo.after hostOps0 (W0 m ρ c) (Proc.devRef .tc main_v0) = _
  after_results
theorem V1_main_v1 (c : Dev nD) : V1 m ρ c main_v1
    = extractStridedSlice S64x1 ![64, 0] (m ((c : Thread nD τ).loc main_arg3)) slices_S128x1_S64x1_64_0 := by
  show StableHlo.after hostOps0 (W0 m ρ c) (Proc.devRef .tc main_v1) = _
  after_results
/-- Region 1 finds the rounded product and the row term at what region 0's write-backs leave, -/
theorem V3_main_v2_0 (c : Dev nD) : V3 m ρ c main_v2_0 = (dat0 (V1 m ρ) c).arrAt 4 cfg0.N :=
  calc W3 m ρ c (Proc.devRef .tc main_v2_0)
    _ = W2 m ρ c (Proc.devRef .tc main_v2_0) := StableHlo.after_of_forall_not_mem (b := Proc.devRef .tc main_v2_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4
theorem V3_main_v2_1 (c : Dev nD) : V3 m ρ c main_v2_1 = (dat0 (V1 m ρ) c).arrAt 5 cfg0.N :=
  calc W3 m ρ c (Proc.devRef .tc main_v2_1)
    _ = W2 m ρ c (Proc.devRef .tc main_v2_1) := StableHlo.after_of_forall_not_mem (b := Proc.devRef .tc main_v2_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 5 cfg0.N := W2_arr m ρ c 5
/-- the column term reshaped to a row, -/
theorem V3_main_v3 (c : Dev nD) : V3 m ρ c main_v3
    = shapeCast S1x8192 ((dat0 (V1 m ρ) c).arrAt 6 cfg0.N) shapeCasts_S8192x1_S1x8192 := by
  show StableHlo.after hostOps1 (W2 m ρ c) (Proc.devRef .tc main_v3) = _
  after_results
  rw [show W2 m ρ c (Proc.devRef .tc main_v2_2) = _ from W2_arr m ρ c 6]
  rfl
/-- and the adjacency as launched. -/
theorem V3_main_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- The run with its values: at the compiled mesh, from any memory with zero counters, every weakly fair execution of
    @main on the TensorCores terminates, nothing faulting, and every final state has the result buffer at what the
    second pipeline's write-backs leave in its output array and the argument arrays as launched. -/
theorem run_vals : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_vals m ρ)

end Cert.Kernel.Hand

end
-- ==== Proof.KI.Reg0.lean ====
import proofs.«132961_j14972255994171_2_alg».proof.Proof.Gen.KernelIdeal.Launch
import proofs.«132961_j14972255994171_2_alg».proof.Proof.Gen.KernelIdeal.Skeleton
import proofs.«132961_j14972255994171_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this region's half is stated at
variable (V : (c : Dev nD) → (b : Ref sig .tc) → Buf (Elt F) ((c : Thread nD τ).loc b))

/-! # Region 0 of @main: the first kernel (pipeline 0), Wh = h·W with its two projections, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched window's
    block index has not moved, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): an unfetched window's
    block index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): an unfetched window's
    block index has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): an unfetched window's
    block index has not moved, so the buffer still holds this point's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each store writes its whole block -/

abbrev r0_4 : Rect S1024x64 := Rect.unit (s := S1024x64) ![0, 0] S1024x64.size inb_S1024x64_S1024x64_0_0
abbrev r0_5 : Rect S1024x1 := Rect.unit (s := S1024x1) ![0, 0] S1024x1.size inb_S1024x1_S1024x1_0_0

/-! ## What the body leaves in each output window's buffer -/

/-- Window 4's staging buffer after the body: the rounded product of the row block and the weights, its one store. -/
def out0_4 (x0 : Vec F S1024x128 .f32) (x1 : Vec F S128x64 .f32) : Vec F S1024x64 .bf16 :=
  View.canon [⟨r0_4, k0_pay2 (View.ld x0 (Rect.unit (s := S1024x128) ![0, 0] S1024x128.size inb_S1024x128_S1024x128_0_0)) (View.ld x1 (Rect.unit (s := S128x64) ![0, 0] S128x64.size inb_S128x64_S128x64_0_0))⟩]

/-- Window 5's staging buffer after the body: the unrounded product times the first projection vector. -/
def out0_5 (x0 : Vec F S1024x128 .f32) (x1 : Vec F S128x64 .f32) (x2 : Vec F S64x1 .f32) : Vec F S1024x1 .f32 :=
  View.canon [⟨r0_5, k0_pay3 (View.ld x0 (Rect.unit (s := S1024x128) ![0, 0] S1024x128.size inb_S1024x128_S1024x128_0_0)) (View.ld x1 (Rect.unit (s := S128x64) ![0, 0] S128x64.size inb_S128x64_S128x64_0_0)) (View.ld x2 (Rect.unit (s := S64x1) ![0, 0] S64x1.size inb_S64x1_S64x1_0_0))⟩]

/-- Window 6's staging buffer after the body: the unrounded product times the second projection vector. -/
def out0_6 (x0 : Vec F S1024x128 .f32) (x1 : Vec F S128x64 .f32) (x3 : Vec F S64x1 .f32) : Vec F S1024x1 .f32 :=
  View.canon [⟨r0_5, k0_pay4 (View.ld x0 (Rect.unit (s := S1024x128) ![0, 0] S1024x128.size inb_S1024x128_S1024x128_0_0)) (View.ld x1 (Rect.unit (s := S128x64) ![0, 0] S128x64.size inb_S128x64_S128x64_0_0)) (View.ld x3 (Rect.unit (s := S64x1) ![0, 0] S64x1.size inb_S64x1_S64x1_0_0))⟩]

/-- A whole-block store covers the buffer. -/
theorem cover0_4 (p0 : Vec F S1024x64 .bf16) (y : S1024x64.Idx) :
    ∃ pc ∈ ([⟨r0_4, p0⟩] : List (View.Piece (Elt F) S1024x64 .bf16)), y ∈ pc.1.set :=
  View.cover_of_tiled [⟨r0_4, p0⟩] S1024x64.size (by rfl) y

theorem cover0_5 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-! ## The body's triple -/

set_option maxHeartbeats 1000000 in
/-- The kernel body on whole staging memrefs, the inputs' at read contents and the outputs' at anything, runs to the
    continuation holding the inputs' as they were and each output's at `out0_W` of the inputs'. Each output buffer is
    also read just before it is overwritten; the value read is used nowhere. -/
theorem sound_kernel0 (c : Dev nD) (E : Set ℕ) (i : grid0.Coords)
    (arg1 : Memref sig .tc .vmem S1024x128 .f32) (harg1 : arg1.IsWhole) (arg2 : Memref sig .tc .vmem S128x64 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S1024x64 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x128 .f32) (x1 : Vec F S128x64 .f32) (x2 : Vec F S64x1 .f32) (x3 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2) ∗ owns (c : Thread nD τ) arg7 fullShare (out0_6 x0 x1 x3)) -∗ K ⟨⟩))
      ⊢ wp frame (wpE (defs₀ (F := F)) Variants.none c none) E (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The pipeline's proof data -/

/-- The proof data of pipeline 0 on core `c`: the arrays as the region finds them (`V`); after the body at point `t`
    each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple gives each output's buffer at
    its payload of those blocks; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Reg1Base.lean ====
import proofs.«132961_j14972255994171_2_alg».proof.Proof.Gen.KernelIdeal.Launch
import proofs.«132961_j14972255994171_2_alg».proof.Proof.Gen.KernelIdeal.Skeleton
import proofs.«132961_j14972255994171_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call (the attention kernel, pipeline 1), at the contents `V` the region is entered with:
    what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the key/value tile is the first of its row: the running maximum,
    the running sum and the accumulator are reset), from the grid coordinates. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second `scf.if` (the key/value tile is the last of its row: the normalised,
    activated row block is stored), from the grid coordinates. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the even points the output window is idle: the body stores nothing into it. -/
theorem idleAt1_4_A : ∀ t : Fin cfg1.N, cond1_0 (grid1.coords t) → ¬cond1_1 (grid1.coords t) → cfg1.idle 4 (grid1.coords t) = true := by decide +kernel
/-- At the even points the pipeline does not write the output window's block back. -/
theorem noFlush1_4_A : ∀ t : Fin cfg1.N, cond1_0 (grid1.coords t) → ¬cond1_1 (grid1.coords t) → (cfg1.win 4).flush t = false := by decide +kernel
/-- At the odd points the output window is live: the body stores into it. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S512x64 .f32 := (Memref.whole cc1_stg4_0 : Memref sig .tc .vmem S512x64 .f32).view
/-- Each window's current staging memref at point `t`, spelled as the pipeline passes it, and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
/-- The scratch operands (running maximum, running sum, accumulator): whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
/-- The same as views: what each holds is stated through it. -/
abbrev VS1_0 : View sig .tc .vmem S512x1 .f32 := scM1_0.view
abbrev VS1_1 : View sig .tc .vmem S512x1 .f32 := scM1_1.view
abbrev VS1_2 : View sig .tc .vmem S512x64 .f32 := scM1_2.view

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The region's invariant before its first point, with the scratch operands as memrefs owned at some contents:
    the first kernel call's staging buffers pass through untouched. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.Reg1RunA.lean ====
import proofs.«132961_j14972255994171_2_alg».proof.Proof.KI.Reg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the scratch operands, as pieces (last first), at a point whose key/value tile is the
    FIRST of its row (first `scf.if` taken, second not), with the proof that on whole memrefs — the inputs' at their
    contents, the output's at contents `xi4` handed back untouched, the scratch at anything — the body runs to the
    continuation holding the inputs' as they were and each scratch with its pieces written. -/
noncomputable def kernelRun1_A (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) :
    Σ' (L4 : List (View.Piece (Elt F) S512x64 .f32)) (LS0 : List (View.Piece (Elt F) S512x1 .f32)) (LS1 : List (View.Piece (Elt F) S512x1 .f32)), { LS2 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__gat_kernel_eq_skeleton]; unfold cc1__gat_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Reg1RunB.lean ====
import proofs.«132961_j14972255994171_2_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the scratch operands, as pieces (last first), at a
    point whose key/value tile is the LAST of its row (first `scf.if` not taken, second taken), with the proof that on
    whole memrefs — the inputs' at their contents, the output's at anything, the scratch at the contents `xs·` the point
    before left — the body runs to the continuation holding the inputs' as they were and the output's buffer and each
    scratch with its pieces written. -/
noncomputable def kernelRun1_B (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) :
    Σ' (L4 : List (View.Piece (Elt F) S512x64 .f32)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨?_, ?_, ?_, ?_, fun E K => ?run⟩
  case run =>
    simp only [cc1__gat_kernel_eq_skeleton]; unfold cc1__gat_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Reg1Defs.lean ====
import proofs.«132961_j14972255994171_2_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call at the entry contents `V`: what its buffers hold point by point, and the proof data -/

/-! ## What each case leaves -/

/-- At a first tile the body stores nothing into the output window (idle there and not written back): no pieces; its
    value is never read. -/
def out1_A_4 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x64 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- At a first tile the pieces stored into the running maximum (the reset, then the update) cover it. -/
theorem scover1_A_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x1.size (by sl_kernel_rfl) y

/-- What a first tile leaves in the running maximum: its pieces read back over junk. -/
def sout1_A_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- At a first tile the pieces stored into the running sum (the reset, then the update) cover it. -/
theorem scover1_A_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S512x1.size (by sl_kernel_rfl) y

/-- What a first tile leaves in the running sum: its pieces read back over junk. -/
def sout1_A_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- At a first tile the pieces stored into the accumulator (the reset, then the update) cover it. -/
theorem scover1_A_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) (y : S512x64.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S512x64.size (by sl_kernel_rfl) y

/-- What a first tile leaves in the accumulator: its pieces read back over junk. -/
def sout1_A_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) : Vec F S512x64 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- At a last tile the one store into the output window covers its block. -/
theorem cover1_B_4 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x64.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1 S512x64.size (by sl_kernel_rfl) y

/-- What a last tile leaves in the output window's staging buffer: its pieces read back over junk. -/
def out1_B_4 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x64 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- At a last tile the piece stored into the running maximum covers it. -/
theorem scover1_B_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What a last tile leaves in the running maximum: its pieces read back over junk. -/
def sout1_B_0 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- At a last tile the piece stored into the running sum covers it. -/
theorem scover1_B_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What a last tile leaves in the running sum: its pieces read back over junk. -/
def sout1_B_1 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- At a last tile the piece stored into the accumulator covers it. -/
theorem scover1_B_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) (y : S512x64.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S512x64.size (by sl_kernel_rfl) y

/-- What a last tile leaves in the accumulator: its pieces read back over junk. -/
def sout1_B_2 (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) : Vec F S512x64 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-! ## The conditions at a point, from its parity -/

theorem cond1_0_of_even (t : Fin cfg1.N) (h0 : t.val % 2 = 0) : cond1_0 (grid1.coords t) := (hcond1_0 t).mpr h0
theorem not_cond1_1_of_even (t : Fin cfg1.N) (h0 : t.val % 2 = 0) : ¬cond1_1 (grid1.coords t) := fun h => by
  have h1 := (hcond1_1 t).mp h; omega
theorem not_cond1_0_of_odd (t : Fin cfg1.N) (h0 : ¬t.val % 2 = 0) : ¬cond1_0 (grid1.coords t) := fun h => h0 ((hcond1_0 t).mp h)
theorem cond1_1_of_odd (t : Fin cfg1.N) (h0 : ¬t.val % 2 = 0) : cond1_1 (grid1.coords t) := (hcond1_1 t).mpr (by omega)

/-! ## What the buffers hold after each point -/

/-- THE ACCUMULATION. What the output window's staging buffer and the three scratch operands hold after the body at
    position `n` (output, running maximum, running sum, accumulator): at an even point the first-tile case, run at the
    point's memrefs and input blocks (the scratch is reset there, so nothing of the point before is read); at an odd point
    the last-tile case over what the point before left in the scratch. -/
def outsAt1 (c : Dev nD) : (n : ℕ) → n < cfg1.N → Vec F S512x64 .f32 × Vec F S512x1 .f32 × Vec F S512x1 .f32 × Vec F S512x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (cond1_0_of_even ⟨0, hn⟩ (Nat.zero_mod _)) (not_cond1_1_of_even ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (cond1_0_of_even ⟨n + 1, hn⟩ h0) (not_cond1_1_of_even ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (not_cond1_0_of_odd ⟨n + 1, hn⟩ h0) (cond1_1_of_odd ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at an even point (the first key/value tile of a row): that case's contents. -/
theorem outsAt1_first (c : Dev nD) (t : Fin cfg1.N) (h0 : t.val % 2 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an odd point (the last key/value tile of a row): that case's contents, over what the point before left. -/
theorem outsAt1_last (c : Dev nD) (t : Fin cfg1.N) (h0 : ¬t.val % 2 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point every scoped buffer that is no staging buffer
    of this kernel call, at anything; afterwards the first kernel call's staging buffers at anything, the
    three scratch operands at what the point before left in them, and the generator register at some state. -/
def PhiS1 (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg4_1 ∗ anyBuf (F := F) c cc0_stg5_0 ∗ anyBuf (F := F) c cc0_stg5_1 ∗ anyBuf (F := F) c cc0_stg6_0 ∗ anyBuf (F := F) c cc0_stg6_1 ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KI.Reg1Body.lean ====
import proofs.«132961_j14972255994171_2_alg».proof.Proof.KI.Reg1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call at the entry contents `V`: the body obligation and the invariant's two ends -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's parity says which case it is in, so the body
    behaves as that case describes; the invariant hands the body the three scratch operands at what the point before left (at anything at the
    first point) and the first kernel call's staging buffers, which pass through, and takes the scratch back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · rw [Dat.leavesExact_idle (dat1 V c) 4 t (idleAt1_4_A t (cond1_0_of_even t h0) (not_cond1_1_of_even t h0)) (noFlush1_4_A t (cond1_0_of_even t h0) (not_cond1_1_of_even t h0))]
    rw [outsAt1_first V c t h0]
    unfold sout1_A_0 sout1_A_1 sout1_A_2; (try dsimp only)
    by_cases hz : t.val = 0
    · rw [PhiS1_castSucc V c t, PhiS1_zero V c _ _ hz, PhiA1_eq]
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ (cond1_0_of_even t h0) (not_cond1_1_of_even t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [A0 A1 A2 A3 A4 A5 A6 A7 A8 A9 A10 HS0 HS1 HS2 Hg]
      · isplitl [A0 A1 A2 A3 A4 A5 A6 A7 A8 A9 A10 HS0 HS1 HS2]
        · skip
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ (cond1_0_of_even t h0) (not_cond1_1_of_even t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [A0 A1 A2 A3 A4 A5 A6 A7 A8 A9 A10 HS0 HS1 HS2 Hg]
      · isplitl [A0 A1 A2 A3 A4 A5 A6 A7 A8 A9 A10 HS0 HS1 HS2]
        · skip
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (ms1_4 t) fullShare ((dat1 V c).after 4 t) from by
      unfold Dat.leavesExact; rw [liveAt1_4_B t (not_cond1_0_of_odd t h0) (cond1_1_of_odd t h0)], after1_4]
    rw [outsAt1_last V c t h0]
    unfold out1_B_4 sout1_B_0 sout1_B_1 sout1_B_2; (try dsimp only)
    have hz : t.val ≠ 0 := fun h => h0 (by rw [h])
    · rw [PhiS1_castSucc V c t, PhiS1_pos V c _ _ hz]
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ (not_cond1_0_of_odd t h0) (cond1_1_of_odd t h0) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [A0 A1 A2 A3 A4 A5 A6 A7 A8 A9 A10 HS0 HS1 HS2 Hg]
      · isplitl [A0 A1 A2 A3 A4 A5 A6 A7 A8 A9 A10 HS0 HS1 HS2]
        · skip
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back the plain invariant the launch handed in: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨A0, A1, A2, A3, A4, A5, A6, A7, A8, A9, A10, HS0, HS1, HS2⟩, Hg⟩
  isplitl [A0 A1 A2 A3 A4 A5 A6 A7 A8 A9 A10 HS0 HS1 HS2]
  · skip
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Run.lean ====
import proofs.«132961_j14972255994171_2_alg».proof.Proof.Gen.KernelIdeal.Launch
import proofs.«132961_j14972255994171_2_alg».proof.Proof.Gen.KernelIdeal.Skeleton
import proofs.«132961_j14972255994171_2_alg».proof.Proof.Gen.KernelIdeal.Points
import proofs.«132961_j14972255994171_2_alg».proof.Proof.KI.Reg0
import proofs.«132961_j14972255994171_2_alg».proof.Proof.KI.Reg1Defs
import proofs.«132961_j14972255994171_2_alg».proof.Proof.KI.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the two slices of the attention vector (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the column term to a row (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (a region reads it through an
    input window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ### What each region finds in its windows' arrays -/

/-- Region 0 finds the feature rows and the weights as launched: the two slices write neither. -/
theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem V1_main_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- and each projection vector at its half of the launched attention vector. -/
theorem V1_main_v0 (c : Dev nD) : V1 m ρ c main_v0
    = extractStridedSlice S64x1 ![0, 0] (m ((c : Thread nD τ).loc main_arg3)) slices_S128x1_S64x1_0_0 := by
  show StableHlo.after hostOps0 (W0 m ρ c) (Proc.devRef .tc main_v0) = _
  after_results
theorem V1_main_v1 (c : Dev nD) : V1 m ρ c main_v1
    = extractStridedSlice S64x1 ![64, 0] (m ((c : Thread nD τ).loc main_arg3)) slices_S128x1_S64x1_64_0 := by
  show StableHlo.after hostOps0 (W0 m ρ c) (Proc.devRef .tc main_v1) = _
  after_results
/-- Region 1 finds the rounded product and the row term at what region 0's write-backs leave, -/
theorem V3_main_v2_0 (c : Dev nD) : V3 m ρ c main_v2_0 = (dat0 (V1 m ρ) c).arrAt 4 cfg0.N :=
  calc W3 m ρ c (Proc.devRef .tc main_v2_0)
    _ = W2 m ρ c (Proc.devRef .tc main_v2_0) := StableHlo.after_of_forall_not_mem (b := Proc.devRef .tc main_v2_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4
theorem V3_main_v2_1 (c : Dev nD) : V3 m ρ c main_v2_1 = (dat0 (V1 m ρ) c).arrAt 5 cfg0.N :=
  calc W3 m ρ c (Proc.devRef .tc main_v2_1)
    _ = W2 m ρ c (Proc.devRef .tc main_v2_1) := StableHlo.after_of_forall_not_mem (b := Proc.devRef .tc main_v2_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 5 cfg0.N := W2_arr m ρ c 5
/-- the column term reshaped to a row, -/
theorem V3_main_v3 (c : Dev nD) : V3 m ρ c main_v3
    = shapeCast S1x8192 ((dat0 (V1 m ρ) c).arrAt 6 cfg0.N) shapeCasts_S8192x1_S1x8192 := by
  show StableHlo.after hostOps1 (W2 m ρ c) (Proc.devRef .tc main_v3) = _
  after_results
  rw [show W2 m ρ c (Proc.devRef .tc main_v2_2) = _ from W2_arr m ρ c 6]
  rfl
/-- and the adjacency as launched. -/
theorem V3_main_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- The run with its values: at the compiled mesh, from any memory with zero counters, every weakly fair execution of
    @main on the TensorCores terminates, nothing faulting, and every final state has the result buffer at what the
    second pipeline's write-backs leave in its output array and the argument arrays as launched. -/
theorem run_vals : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_vals m ρ)

end Cert.KernelIdeal.Hand

end
-- ==== Proof.Spec.lean ====
/-
  The mathematics of the certificate, stated with no program in sight.

  A graph-attention layer over N = 8192 nodes.  From features `h` (N × 128), weights `W` (128 × 64), an
  attention vector `a` (128, split in two halves `a1`, `a2`) and an integer adjacency matrix `adj` (N × N):
  `wh = h · W`, the score of the pair (i, j) is `leaky (wh i · a1 + wh j · a2)` where `adj i j > 0` and the
  large negative constant elsewhere, each row of scores is soft-maxed, the result weights the rows of `wh`,
  and an exponential linear unit closes the layer.

  Two ways of computing it are written down here, element by element on the extended reals:
  `refOut`  — the row's maximum, the exponentials, their sum, the quotient, the weighted sum (one pass);
  `kerOut`  — the same row treated as two tiles of 4096 columns with a running maximum `m`, a running
  normaliser `l` and a running weighted sum `acc`, each rescaled by `exp (m_old - m_new)` when the second
  tile arrives, the quotient `acc / l` taken once at the end.
  `Algebra.lean` proves the two equal when every entry of `h`, `W`, `a` is a real number.
-/
import Idealize.ShloMosaic.PureOps.Ideal
import Idealize.ShloMosaic.Lib.ValueIdx

noncomputable section

open Idealize.ShloMosaic
open scoped BigOperators

namespace Cert.Gat

/-- The float literals the two programs share, as the extended reals their binary words denote. -/
abbrev zeroF : EReal := Ideal.ofBits .f32 0x00000000#32
abbrev oneF : EReal := Ideal.ofBits .f32 0x3F800000#32
/-- The leaky slope 0.2 (its nearest binary32 value). -/
abbrev slope : EReal := Ideal.ofBits .f32 0x3E4CCCCD#32
/-- The finite stand-in for minus infinity on masked pairs, −9·10¹⁵ (its nearest binary32 value). -/
abbrev negBig : EReal := Ideal.ofBits .f32 0xD9FFCB9E#32
/-- Minus infinity, the neutral element the maxima start from. -/
abbrev negInf : EReal := Ideal.ofBits .f32 0xFF800000#32

/-- `x` where `x ≥ 0`, `0.2 · x` elsewhere. -/
def leaky (x : EReal) : EReal := if Ideal.cmp .oge x zeroF = 1 then x else slope * x

/-- A pair's score: the edge value where the adjacency entry is positive (as a signed word), the stand-in elsewhere. -/
def score (w : BitVec 32) (e : EReal) : EReal := if IntOp.cmpi .sgt w 0#32 = 1 then e else negBig

/-- The reference's closing unit: `x` where `x > 0`, `1 · (exp x' − 1)` elsewhere, `x'` being `x` made `0` where `x > 0`. -/
def eluRef (x : EReal) : EReal :=
  if Ideal.cmp .ogt x zeroF = 1 then x
  else oneF * (Ideal.exp (if Ideal.cmp .ogt x zeroF = 1 then zeroF else x) - 1)

/-- The kernel's closing unit: `x` where `x > 0`, `exp x − 1` elsewhere. -/
def eluKer (x : EReal) : EReal := if Ideal.cmp .ogt x zeroF = 1 then x else Ideal.exp x - oneF

/-- Column `jj` of tile `b` (two tiles of 4096 columns). -/
def blk (b : Fin 2) (jj : Fin 4096) : Fin 8192 := ⟨4096 * b.val + jj.val, by omega⟩

section
variable (h : Fin 8192 → Fin 128 → EReal) (adj : Fin 8192 → Fin 8192 → BitVec 32)
  (W : Fin 128 → Fin 64 → EReal) (a : Fin 128 → EReal)

/-- The projected features `h · W`. -/
def wh (i : Fin 8192) (k : Fin 64) : EReal := ∑ d : Fin 128, h i d * W d k
/-- The two halves of the attention vector. -/
def a1 (k : Fin 64) : EReal := a ⟨k.val, by omega⟩
def a2 (k : Fin 64) : EReal := a ⟨64 + k.val, by omega⟩
/-- A node's term as a source, `wh i · a1`, and as a target, `wh j · a2`. -/
def rowT (i : Fin 8192) : EReal := ∑ k : Fin 64, wh h W i k * a1 a k
def colT (j : Fin 8192) : EReal := ∑ k : Fin 64, wh h W j k * a2 a k
/-- The masked score of the pair (i, j). -/
def sc (i j : Fin 8192) : EReal := score (adj i j) (leaky (rowT h W a i + colT h W a j))

/-! ### One pass -/
def refMax (i : Fin 8192) : EReal := max negInf (Finset.univ.fold max negInf (fun j : Fin 8192 => sc h adj W a i j))
def refP (i j : Fin 8192) : EReal := Ideal.exp (sc h adj W a i j - refMax h adj W a i)
def refL (i : Fin 8192) : EReal := zeroF + ∑ j : Fin 8192, refP h adj W a i j
def refHp (i : Fin 8192) (k : Fin 64) : EReal :=
  ∑ j : Fin 8192, Ideal.div (refP h adj W a i j) (refL h adj W a i) * wh h W j k
def refOut (i : Fin 8192) (k : Fin 64) : EReal := eluRef (refHp h adj W a i k)

/-! ### Two tiles, running maximum, normaliser and weighted sum -/
def kM0 (i : Fin 8192) : EReal := max negInf (Finset.univ.fold max negInf (fun jj : Fin 4096 => sc h adj W a i (blk 0 jj)))
def kAl0 (i : Fin 8192) : EReal := Ideal.exp (negInf - kM0 h adj W a i)
def kP0 (i : Fin 8192) (jj : Fin 4096) : EReal := Ideal.exp (sc h adj W a i (blk 0 jj) - kM0 h adj W a i)
def kL0 (i : Fin 8192) : EReal := kAl0 h adj W a i * zeroF + ∑ jj : Fin 4096, kP0 h adj W a i jj
def kAcc0 (i : Fin 8192) (k : Fin 64) : EReal :=
  kAl0 h adj W a i * zeroF + ∑ jj : Fin 4096, kP0 h adj W a i jj * wh h W (blk 0 jj) k
def kM1 (i : Fin 8192) : EReal :=
  max (kM0 h adj W a i) (Finset.univ.fold max negInf (fun jj : Fin 4096 => sc h adj W a i (blk 1 jj)))
def kAl1 (i : Fin 8192) : EReal := Ideal.exp (kM0 h adj W a i - kM1 h adj W a i)
def kP1 (i : Fin 8192) (jj : Fin 4096) : EReal := Ideal.exp (sc h adj W a i (blk 1 jj) - kM1 h adj W a i)
def kL1 (i : Fin 8192) : EReal := kAl1 h adj W a i * kL0 h adj W a i + ∑ jj : Fin 4096, kP1 h adj W a i jj
def kAcc1 (i : Fin 8192) (k : Fin 64) : EReal :=
  kAl1 h adj W a i * kAcc0 h adj W a i k + ∑ jj : Fin 4096, kP1 h adj W a i jj * wh h W (blk 1 jj) k
def kerOut (i : Fin 8192) (k : Fin 64) : EReal := eluKer (Ideal.div (kAcc1 h adj W a i k) (kL1 h adj W a i))

end

end Cert.Gat

end
-- ==== Proof.KI.Payload0.lean ====
import proofs.«132961_j14972255994171_2_alg».proof.Proof.Gen.KernelIdeal.Skeleton
import proofs.«132961_j14972255994171_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen
open scoped BigOperators

/-! ## The first kernel's two products read at an index -/

section

theorem lhsA_0 (i : S1024x64.Idx) (q : (dot_S1024x128_S128x64_S1024x64_1_0_0_1_n_n).contr.Idx) :
    ((dot_S1024x128_S128x64_S1024x64_1_0_0_1_n_n).lhsIdx i q 0).val = (i 0).val := by
  unfold DotDims.lhsIdx
  rw [dif_neg (show ¬(0 : Fin S1024x128.rank) ∈ (dot_S1024x128_S128x64_S1024x64_1_0_0_1_n_n).lhsBatch by decide),
    dif_pos (show (0 : Fin S1024x128.rank) ∈ (dot_S1024x128_S128x64_S1024x64_1_0_0_1_n_n).lhsNonContracting by decide)]
  rfl
theorem lhsA_1 (i : S1024x64.Idx) (q : (dot_S1024x128_S128x64_S1024x64_1_0_0_1_n_n).contr.Idx) :
    ((dot_S1024x128_S128x64_S1024x64_1_0_0_1_n_n).lhsIdx i q 1).val = (q ⟨0, by decide⟩).val :=
  (dot_S1024x128_S128x64_S1024x64_1_0_0_1_n_n).lhsIdx_val_of_single rfl i q
theorem rhsA_0 (i : S1024x64.Idx) (q : (dot_S1024x128_S128x64_S1024x64_1_0_0_1_n_n).contr.Idx) :
    ((dot_S1024x128_S128x64_S1024x64_1_0_0_1_n_n).rhsIdx i q 0).val = (q ⟨0, by decide⟩).val :=
  (dot_S1024x128_S128x64_S1024x64_1_0_0_1_n_n).rhsIdx_val_of_single rfl i q
theorem rhsA_1 (i : S1024x64.Idx) (q : (dot_S1024x128_S128x64_S1024x64_1_0_0_1_n_n).contr.Idx) :
    ((dot_S1024x128_S128x64_S1024x64_1_0_0_1_n_n).rhsIdx i q 1).val = (i 1).val := by
  unfold DotDims.rhsIdx
  rw [dif_neg (show ¬(1 : Fin S128x64.rank) ∈ (dot_S1024x128_S128x64_S1024x64_1_0_0_1_n_n).rhsBatch by decide),
    dif_pos (show (1 : Fin S128x64.rank) ∈ (dot_S1024x128_S128x64_S1024x64_1_0_0_1_n_n).rhsNonContracting by decide)]
  rfl

/-- The `1024 × 128` by `128 × 64` product into the zero accumulator, read at `(p, c)`: the sum over the 128 inner coordinates. -/
theorem matmulA_apply {φ₁ φ₂ : FTy} (lhs : FVec Ideal S1024x128 φ₁) (rhs : FVec Ideal S128x64 φ₂) (p : Fin 1024) (c : Fin 64) :
    (matmul dot_S1024x128_S128x64_S1024x64_1_0_0_1_n_n none lhs rhs (constant S1024x64 .f32 0x00000000#32) : FVec Ideal S1024x64 .f32) (ix2 p c)
      = ∑ q : Fin 128, lhs (ix2 p q) * rhs (ix2 q c) := by
  simp only [matmul]
  rw [Ideal.matmul_constant_zero_apply, ← Equiv.sum_comp (contrEquiv1 dot_S1024x128_S128x64_S1024x64_1_0_0_1_n_n 128 rfl rfl).symm]
  refine Finset.sum_congr rfl fun q _ => ?_
  have hk := contrEquiv1_symm_val dot_S1024x128_S128x64_S1024x64_1_0_0_1_n_n 128 rfl rfl q
  have el : (dot_S1024x128_S128x64_S1024x64_1_0_0_1_n_n).lhsIdx (ix2 p c) ((contrEquiv1 dot_S1024x128_S128x64_S1024x64_1_0_0_1_n_n 128 rfl rfl).symm q) = ix2 p q :=
    funext fun a => Fin.ext (by
      match a with
      | ⟨0, _⟩ => exact lhsA_0 _ _
      | ⟨1, _⟩ => exact (lhsA_1 _ _).trans hk)
  have er : (dot_S1024x128_S128x64_S1024x64_1_0_0_1_n_n).rhsIdx (ix2 p c) ((contrEquiv1 dot_S1024x128_S128x64_S1024x64_1_0_0_1_n_n 128 rfl rfl).symm q) = ix2 q c :=
    funext fun a => Fin.ext (by
      match a with
      | ⟨0, _⟩ => exact (rhsA_0 _ _).trans hk
      | ⟨1, _⟩ => exact rhsA_1 _ _)
  rw [el, er]
end

section

theorem lhsB_0 (i : S1024x1.Idx) (q : (dot_S1024x64_S64x1_S1024x1_1_0_0_1_n_n).contr.Idx) :
    ((dot_S1024x64_S64x1_S1024x1_1_0_0_1_n_n).lhsIdx i q 0).val = (i 0).val := by
  unfold DotDims.lhsIdx
  rw [dif_neg (show ¬(0 : Fin S1024x64.rank) ∈ (dot_S1024x64_S64x1_S1024x1_1_0_0_1_n_n).lhsBatch by decide),
    dif_pos (show (0 : Fin S1024x64.rank) ∈ (dot_S1024x64_S64x1_S1024x1_1_0_0_1_n_n).lhsNonContracting by decide)]
  rfl
theorem lhsB_1 (i : S1024x1.Idx) (q : (dot_S1024x64_S64x1_S1024x1_1_0_0_1_n_n).contr.Idx) :
    ((dot_S1024x64_S64x1_S1024x1_1_0_0_1_n_n).lhsIdx i q 1).val = (q ⟨0, by decide⟩).val :=
  (dot_S1024x64_S64x1_S1024x1_1_0_0_1_n_n).lhsIdx_val_of_single rfl i q
theorem rhsB_0 (i : S1024x1.Idx) (q : (dot_S1024x64_S64x1_S1024x1_1_0_0_1_n_n).contr.Idx) :
    ((dot_S1024x64_S64x1_S1024x1_1_0_0_1_n_n).rhsIdx i q 0).val = (q ⟨0, by decide⟩).val :=
  (dot_S1024x64_S64x1_S1024x1_1_0_0_1_n_n).rhsIdx_val_of_single rfl i q
theorem rhsB_1 (i : S1024x1.Idx) (q : (dot_S1024x64_S64x1_S1024x1_1_0_0_1_n_n).contr.Idx) :
    ((dot_S1024x64_S64x1_S1024x1_1_0_0_1_n_n).rhsIdx i q 1).val = (i 1).val := by
  unfold DotDims.rhsIdx
  rw [dif_neg (show ¬(1 : Fin S64x1.rank) ∈ (dot_S1024x64_S64x1_S1024x1_1_0_0_1_n_n).rhsBatch by decide),
    dif_pos (show (1 : Fin S64x1.rank) ∈ (dot_S1024x64_S64x1_S1024x1_1_0_0_1_n_n).rhsNonContracting by decide)]
  rfl

/-- The `1024 × 64` by `64 × 1` product into the zero accumulator, read at `(p, c)`: the sum over the 64 inner coordinates. -/
theorem matmulB_apply {φ₁ φ₂ : FTy} (lhs : FVec Ideal S1024x64 φ₁) (rhs : FVec Ideal S64x1 φ₂) (p : Fin 1024) (c : Fin 1) :
    (matmul dot_S1024x64_S64x1_S1024x1_1_0_0_1_n_n none lhs rhs (constant S1024x1 .f32 0x00000000#32) : FVec Ideal S1024x1 .f32) (ix2 p c)
      = ∑ q : Fin 64, lhs (ix2 p q) * rhs (ix2 q c) := by
  simp only [matmul]
  rw [Ideal.matmul_constant_zero_apply, ← Equiv.sum_comp (contrEquiv1 dot_S1024x64_S64x1_S1024x1_1_0_0_1_n_n 64 rfl rfl).symm]
  refine Finset.sum_congr rfl fun q _ => ?_
  have hk := contrEquiv1_symm_val dot_S1024x64_S64x1_S1024x1_1_0_0_1_n_n 64 rfl rfl q
  have el : (dot_S1024x64_S64x1_S1024x1_1_0_0_1_n_n).lhsIdx (ix2 p c) ((contrEquiv1 dot_S1024x64_S64x1_S1024x1_1_0_0_1_n_n 64 rfl rfl).symm q) = ix2 p q :=
    funext fun a => Fin.ext (by
      match a with
      | ⟨0, _⟩ => exact lhsB_0 _ _
      | ⟨1, _⟩ => exact (lhsB_1 _ _).trans hk)
  have er : (dot_S1024x64_S64x1_S1024x1_1_0_0_1_n_n).rhsIdx (ix2 p c) ((contrEquiv1 dot_S1024x64_S64x1_S1024x1_1_0_0_1_n_n 64 rfl rfl).symm q) = ix2 q c :=
    funext fun a => Fin.ext (by
      match a with
      | ⟨0, _⟩ => exact (rhsB_0 _ _).trans hk
      | ⟨1, _⟩ => exact rhsB_1 _ _)
  rw [el, er]
end

/-! ## The first kernel's payloads -/

/-- The projected features of a block of rows. -/
theorem k0_pay1_apply (v0 : Vec Ideal S1024x128 .f32) (v1 : Vec Ideal S128x64 .f32) (p : Fin 1024) (q : Fin 64) :
    k0_pay1 v0 v1 (ix2 p q) = ∑ d : Fin 128, v0 (ix2 p d) * v1 (ix2 d q) := by
  unfold Gen.k0_pay1
  exact matmulA_apply v0 v1 p q

/-- The same in the narrower format: the change of format is the identity on extended reals. -/
theorem k0_pay2_apply (v0 : Vec Ideal S1024x128 .f32) (v1 : Vec Ideal S128x64 .f32) (p : Fin 1024) (q : Fin 64) :
    k0_pay2 v0 v1 (ix2 p q) = ∑ d : Fin 128, v0 (ix2 p d) * v1 (ix2 d q) := by
  unfold Gen.k0_pay2
  rw [truncf_apply]
  exact k0_pay1_apply v0 v1 p q

/-- A row's term against one half of the attention vector. -/
theorem k0_pay3_apply (v0 : Vec Ideal S1024x128 .f32) (v1 : Vec Ideal S128x64 .f32) (v5 : Vec Ideal S64x1 .f32) (p : Fin 1024) :
    k0_pay3 v0 v1 v5 (ix2 p 0) = ∑ k : Fin 64, (∑ d : Fin 128, v0 (ix2 p d) * v1 (ix2 d k)) * v5 (ix2 k 0) := by
  unfold Gen.k0_pay3
  rw [shapeCast_self]
  refine (matmulB_apply (k0_pay1 v0 v1) v5 p 0).trans ?_
  exact Finset.sum_congr rfl fun k _ => congrArg (· * v5 (ix2 k 0)) (k0_pay1_apply v0 v1 p k)

/-- A row's term against the other half. -/
theorem k0_pay4_apply (v0 : Vec Ideal S1024x128 .f32) (v1 : Vec Ideal S128x64 .f32) (v9 : Vec Ideal S64x1 .f32) (p : Fin 1024) :
    k0_pay4 v0 v1 v9 (ix2 p 0) = ∑ k : Fin 64, (∑ d : Fin 128, v0 (ix2 p d) * v1 (ix2 d k)) * v9 (ix2 k 0) := by
  unfold Gen.k0_pay4
  rw [shapeCast_self]
  refine (matmulB_apply (k0_pay1 v0 v1) v9 p 0).trans ?_
  exact Finset.sum_congr rfl fun k _ => congrArg (· * v9 (ix2 k 0)) (k0_pay1_apply v0 v1 p k)

end Cert.KernelIdeal.PayVal

end
-- ==== Proof.KI.Reg0Value.lean ====
import proofs.«132961_j14972255994171_2_alg».proof.Proof.KI.Reg0
import proofs.«132961_j14972255994171_2_alg».proof.Proof.KI.Payload0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

section Values
-- the TensorCore's buffer contents when the region is entered
variable (V : (c : Dev nD) → (b : Ref sig .tc) → Buf (Elt Ideal) ((c : Thread nD τ).loc b))

/-! # Region 0 read as values: the three output arrays as functions of the arrays the region finds -/

theorem zero2 : (![0, 0] : Fin 2 → Nat) = fun _ => 0 := funext fun a => by fin_cases a <;> rfl

/-- The projected features `h · W` as an array. -/
def whArr (A0 : FVec Ideal S8192x128 .f32) (A2 : FVec Ideal S128x64 .f32) : FVec Ideal S8192x64 .bf16 :=
  fun i => ∑ d : Fin 128, A0 (ix2 (⟨(i 0).val, idx2_lt0 i⟩ : Fin 8192) d) * A2 (ix2 d (⟨(i 1).val, idx2_lt1 i⟩ : Fin 64))

/-- A row's term against a projection vector `a`, as a column array. -/
def termArr (A0 : FVec Ideal S8192x128 .f32) (A2 : FVec Ideal S128x64 .f32) (a : FVec Ideal S64x1 .f32) : FVec Ideal S8192x1 .f32 :=
  fun i => ∑ k : Fin 64, (∑ d : Fin 128, A0 (ix2 (⟨(i 0).val, idx2_lt0 i⟩ : Fin 8192) d) * A2 (ix2 d k)) * a (ix2 k 0)

/-- The printed index maps over the grid: the row block of every moving window is the point's number, every other
    block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back through window 4 is block `t` of the projected features. -/
theorem flushed0_4_eq (c : Dev nD) (t : Fin cfg0.N) :
    (dat0 V c).flushed 4 t = ((cfg0.win 4).blk t).view.read (Elt Ideal) (whArr (V c main_arg0) (V c main_arg2)) := by
  show (cfg0.win 4).cut (grid0.coords t) ((dat0 V c).after 4 t) = _
  rw [after0_4]
  unfold out0_4
  rw [View.canon_unit_zero zero2]
  simp only [View.ld_unit_zero (S := S1024x128) zero2, View.ld_unit_zero (S := S128x64) zero2]
  obtain ⟨e00, e01, e10, e11, e20, e21, e30, e31, e40, e41, e50, e51, e60, e61⟩ := idx_facts0 t
  funext j
  obtain ⟨p, q, rfl⟩ : ∃ (p : Fin 1024) (q : Fin 64), j = ix2 p q := ⟨j 0, j 1, eq_ix2 j⟩
  show k0_pay2 (iblk0 V c 0 t) (iblk0 V c 1 t) (ix2 p q)
    = whArr (V c main_arg0) (V c main_arg2) (((cfg0.win 4).blk t).view.emb (ix2 p q))
  refine (PayVal.k0_pay2_apply _ _ p q).trans ?_
  unfold whArr
  refine Finset.sum_congr rfl fun d _ => ?_
  have a0 : iblk0 V c 0 t (ix2 p d)
      = V c main_arg0 (ix2 (⟨((((cfg0.win 4).blk t).view.emb (ix2 p q)) 0).val, idx2_lt0 _⟩ : Fin 8192) d) := by
    show V c main_arg0 (((cfg0.win 0).blk t).view.emb (ix2 p d)) = _
    refine congrArg (V c main_arg0) (funext fun a => Fin.ext ?_)
    match a with
    | ⟨0, _⟩ =>
      show win0_0.index t (0 : Fin 2) * 1024 + 1 * p.val = win0_4.index t (0 : Fin 2) * 1024 + 1 * p.val
      omega
    | ⟨1, _⟩ =>
      show win0_0.index t (1 : Fin 2) * 128 + 1 * d.val = d.val
      omega
  have a1 : iblk0 V c 1 t (ix2 d q)
      = V c main_arg2 (ix2 d (⟨((((cfg0.win 4).blk t).view.emb (ix2 p q)) 1).val, idx2_lt1 _⟩ : Fin 64)) := by
    show V c main_arg2 (((cfg0.win 1).blk t).view.emb (ix2 d q)) = _
    refine congrArg (V c main_arg2) (funext fun a => Fin.ext ?_)
    match a with
    | ⟨0, _⟩ =>
      show win0_1.index t (0 : Fin 2) * 128 + 1 * d.val = d.val
      omega
    | ⟨1, _⟩ =>
      show win0_1.index t (1 : Fin 2) * 64 + 1 * q.val = win0_4.index t (1 : Fin 2) * 64 + 1 * q.val
      omega
  rw [a0, a1]

/-- An index of the array is in point `t`'s block of window 4 iff each coordinate is in the block's range on its axis. -/
theorem mem_blk0_4 (t : Fin cfg0.N) (i : S8192x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v2_0).slice (win0_4.rect t)).set ↔ _
  rw [View.set_slice_whole, Rect.mem_set_unit]
  exact Iff.rfl

/-- Every index of the array is in the block of the point numbered by its row divided by 1024, which writes back. -/
theorem covered0_4 (i : S8192x64.Idx) :
    ∃ t : Fin cfg0.N, (cfg0.win 4).flush t = true ∧ i ∈ ((cfg0.win 4).blk t).view.set := by
  have hi0 : (i 0).val < 8192 := idx2_lt0 i
  have hi1 : (i 1).val < 64 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e41, e50, e51, e60, e61⟩ := idx_facts0 t
  refine ⟨t, flush0_4 t, ?_⟩
  rw [mem_blk0_4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 64 ≤ (i 1).val ∧ (i 1).val < win0_4.index t (1 : Fin 2) * 64 + 64
    omega

/-- The first output array after the region: the projected features. -/
theorem arr0_4 (c : Dev nD) : (dat0 V c).arrAt 4 cfg0.N = whArr (V c main_arg0) (V c main_arg2) :=
  (dat0 V c).arrAt_eq_of_cover 4 _ (fun t _ => flushed0_4_eq V c t) covered0_4

/-- Entry `(i, k)` of the first output array is row `i` of the features against column `k` of the weights. -/
theorem reg0_value4 (c : Dev nD) (X0 : FVec Ideal S8192x128 .f32) (X1 : FVec Ideal S128x64 .f32)
    (h0 : V c main_arg0 = X0) (h1 : V c main_arg2 = X1) (i : Fin 8192) (k : Fin 64) :
    (dat0 V c).arrAt 4 cfg0.N (ix2 i k) = (∑ d : Fin 128, X0 (ix2 i d) * X1 (ix2 d k) : EReal) := by
  subst h0 h1
  exact congrFun (arr0_4 V c) (ix2 i k)

/-- What point `t` writes back through window 5 is block `t` of the rows' terms against the first projection vector. -/
theorem flushed0_5_eq (c : Dev nD) (t : Fin cfg0.N) :
    (dat0 V c).flushed 5 t
      = ((cfg0.win 5).blk t).view.read (Elt Ideal) (termArr (V c main_arg0) (V c main_arg2) (V c main_v0)) := by
  show (cfg0.win 5).cut (grid0.coords t) ((dat0 V c).after 5 t) = _
  rw [after0_5]
  unfold out0_5
  rw [View.canon_unit_zero zero2]
  simp only [View.ld_unit_zero (S := S1024x128) zero2, View.ld_unit_zero (S := S128x64) zero2,
    View.ld_unit_zero (S := S64x1) zero2]
  obtain ⟨e00, e01, e10, e11, e20, e21, e30, e31, e40, e41, e50, e51, e60, e61⟩ := idx_facts0 t
  funext j
  obtain ⟨p, u, rfl⟩ : ∃ (p : Fin 1024) (u : Fin 1), j = ix2 p u := ⟨j 0, j 1, eq_ix2 j⟩
  obtain rfl : u = 0 := Subsingleton.elim _ _
  show k0_pay3 (iblk0 V c 0 t) (iblk0 V c 1 t) (iblk0 V c 2 t) (ix2 p 0)
    = termArr (V c main_arg0) (V c main_arg2) (V c main_v0) (((cfg0.win 5).blk t).view.emb (ix2 p 0))
  refine (PayVal.k0_pay3_apply _ _ _ p).trans ?_
  unfold termArr
  refine Finset.sum_congr rfl fun k _ => ?_
  have a0 : ∀ d : Fin 128, iblk0 V c 0 t (ix2 p d)
      = V c main_arg0 (ix2 (⟨((((cfg0.win 5).blk t).view.emb (ix2 p 0)) 0).val, idx2_lt0 _⟩ : Fin 8192) d) := by
    intro d
    show V c main_arg0 (((cfg0.win 0).blk t).view.emb (ix2 p d)) = _
    refine congrArg (V c main_arg0) (funext fun a => Fin.ext ?_)
    match a with
    | ⟨0, _⟩ =>
      show win0_0.index t (0 : Fin 2) * 1024 + 1 * p.val = win0_5.index t (0 : Fin 2) * 1024 + 1 * p.val
      omega
    | ⟨1, _⟩ =>
      show win0_0.index t (1 : Fin 2) * 128 + 1 * d.val = d.val
      omega
  have a1 : ∀ d : Fin 128, iblk0 V c 1 t (ix2 d k) = V c main_arg2 (ix2 d k) := by
    intro d
    show V c main_arg2 (((cfg0.win 1).blk t).view.emb (ix2 d k)) = _
    refine congrArg (V c main_arg2) (funext fun a => Fin.ext ?_)
    match a with
    | ⟨0, _⟩ =>
      show win0_1.index t (0 : Fin 2) * 128 + 1 * d.val = d.val
      omega
    | ⟨1, _⟩ =>
      show win0_1.index t (1 : Fin 2) * 64 + 1 * k.val = k.val
      omega
  have a2 : iblk0 V c 2 t (ix2 k 0) = V c main_v0 (ix2 k 0) := by
    show V c main_v0 (((cfg0.win 2).blk t).view.emb (ix2 k 0)) = _
    refine congrArg (V c main_v0) (funext fun a => Fin.ext ?_)
    match a with
    | ⟨0, _⟩ =>
      show win0_2.index t (0 : Fin 2) * 64 + 1 * k.val = k.val
      omega
    | ⟨1, _⟩ =>
      show win0_2.index t (1 : Fin 2) * 1 + 1 * 0 = 0
      omega
  rw [a2]
  exact congrArg (· * V c main_v0 (ix2 k 0)) (Finset.sum_congr rfl fun d _ => by rw [a0 d, a1 d])

/-- An index of the array is in point `t`'s block of window 5 iff each coordinate is in the block's range on its axis. -/
theorem mem_blk0_5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v2_1).slice (win0_5.rect t)).set ↔ _
  rw [View.set_slice_whole, Rect.mem_set_unit]
  exact Iff.rfl

/-- Every index of the array is in the block of the point numbered by its row divided by 1024, which writes back. -/
theorem covered0_5 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e41, e50, e51, e60, e61⟩ := idx_facts0 t
  refine ⟨t, flush0_5 t, ?_⟩
  rw [mem_blk0_5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1 ≤ (i 1).val ∧ (i 1).val < win0_5.index t (1 : Fin 2) * 1 + 1
    omega

/-- The output array of window 5 after the region: the rows' terms against the first projection vector. -/
theorem arr0_5 (c : Dev nD) : (dat0 V c).arrAt 5 cfg0.N = termArr (V c main_arg0) (V c main_arg2) (V c main_v0) :=
  (dat0 V c).arrAt_eq_of_cover 5 _ (fun t _ => flushed0_5_eq V c t) covered0_5

/-- Entry `i` of that array is row `i` of the projected features against the first projection vector. -/
theorem reg0_value5 (c : Dev nD) (X0 : FVec Ideal S8192x128 .f32) (X1 : FVec Ideal S128x64 .f32) (X2 : FVec Ideal S64x1 .f32)
    (h0 : V c main_arg0 = X0) (h1 : V c main_arg2 = X1) (h2 : V c main_v0 = X2) (i : Fin 8192) :
    (dat0 V c).arrAt 5 cfg0.N (ix2 i 0)
      = (∑ k : Fin 64, (∑ d : Fin 128, X0 (ix2 i d) * X1 (ix2 d k)) * X2 (ix2 k 0) : EReal) := by
  subst h0 h1 h2
  exact congrFun (arr0_5 V c) (ix2 i 0)

/-- What point `t` writes back through window 6 is block `t` of the rows' terms against the second projection vector. -/
theorem flushed0_6_eq (c : Dev nD) (t : Fin cfg0.N) :
    (dat0 V c).flushed 6 t
      = ((cfg0.win 6).blk t).view.read (Elt Ideal) (termArr (V c main_arg0) (V c main_arg2) (V c main_v1)) := by
  show (cfg0.win 6).cut (grid0.coords t) ((dat0 V c).after 6 t) = _
  rw [after0_6]
  unfold out0_6
  rw [View.canon_unit_zero zero2]
  simp only [View.ld_unit_zero (S := S1024x128) zero2, View.ld_unit_zero (S := S128x64) zero2,
    View.ld_unit_zero (S := S64x1) zero2]
  obtain ⟨e00, e01, e10, e11, e20, e21, e30, e31, e40, e41, e50, e51, e60, e61⟩ := idx_facts0 t
  funext j
  obtain ⟨p, u, rfl⟩ : ∃ (p : Fin 1024) (u : Fin 1), j = ix2 p u := ⟨j 0, j 1, eq_ix2 j⟩
  obtain rfl : u = 0 := Subsingleton.elim _ _
  show k0_pay4 (iblk0 V c 0 t) (iblk0 V c 1 t) (iblk0 V c 3 t) (ix2 p 0)
    = termArr (V c main_arg0) (V c main_arg2) (V c main_v1) (((cfg0.win 6).blk t).view.emb (ix2 p 0))
  refine (PayVal.k0_pay4_apply _ _ _ p).trans ?_
  unfold termArr
  refine Finset.sum_congr rfl fun k _ => ?_
  have a0 : ∀ d : Fin 128, iblk0 V c 0 t (ix2 p d)
      = V c main_arg0 (ix2 (⟨((((cfg0.win 6).blk t).view.emb (ix2 p 0)) 0).val, idx2_lt0 _⟩ : Fin 8192) d) := by
    intro d
    show V c main_arg0 (((cfg0.win 0).blk t).view.emb (ix2 p d)) = _
    refine congrArg (V c main_arg0) (funext fun a => Fin.ext ?_)
    match a with
    | ⟨0, _⟩ =>
      show win0_0.index t (0 : Fin 2) * 1024 + 1 * p.val = win0_6.index t (0 : Fin 2) * 1024 + 1 * p.val
      omega
    | ⟨1, _⟩ =>
      show win0_0.index t (1 : Fin 2) * 128 + 1 * d.val = d.val
      omega
  have a1 : ∀ d : Fin 128, iblk0 V c 1 t (ix2 d k) = V c main_arg2 (ix2 d k) := by
    intro d
    show V c main_arg2 (((cfg0.win 1).blk t).view.emb (ix2 d k)) = _
    refine congrArg (V c main_arg2) (funext fun a => Fin.ext ?_)
    match a with
    | ⟨0, _⟩ =>
      show win0_1.index t (0 : Fin 2) * 128 + 1 * d.val = d.val
      omega
    | ⟨1, _⟩ =>
      show win0_1.index t (1 : Fin 2) * 64 + 1 * k.val = k.val
      omega
  have a2 : iblk0 V c 3 t (ix2 k 0) = V c main_v1 (ix2 k 0) := by
    show V c main_v1 (((cfg0.win 3).blk t).view.emb (ix2 k 0)) = _
    refine congrArg (V c main_v1) (funext fun a => Fin.ext ?_)
    match a with
    | ⟨0, _⟩ =>
      show win0_3.index t (0 : Fin 2) * 64 + 1 * k.val = k.val
      omega
    | ⟨1, _⟩ =>
      show win0_3.index t (1 : Fin 2) * 1 + 1 * 0 = 0
      omega
  rw [a2]
  exact congrArg (· * V c main_v1 (ix2 k 0)) (Finset.sum_congr rfl fun d _ => by rw [a0 d, a1 d])

/-- An index of the array is in point `t`'s block of window 6 iff each coordinate is in the block's range on its axis. -/
theorem mem_blk0_6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v2_2).slice (win0_6.rect t)).set ↔ _
  rw [View.set_slice_whole, Rect.mem_set_unit]
  exact Iff.rfl

/-- Every index of the array is in the block of the point numbered by its row divided by 1024, which writes back. -/
theorem covered0_6 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e41, e50, e51, e60, e61⟩ := idx_facts0 t
  refine ⟨t, flush0_6 t, ?_⟩
  rw [mem_blk0_6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1 ≤ (i 1).val ∧ (i 1).val < win0_6.index t (1 : Fin 2) * 1 + 1
    omega

/-- The output array of window 6 after the region: the rows' terms against the second projection vector. -/
theorem arr0_6 (c : Dev nD) : (dat0 V c).arrAt 6 cfg0.N = termArr (V c main_arg0) (V c main_arg2) (V c main_v1) :=
  (dat0 V c).arrAt_eq_of_cover 6 _ (fun t _ => flushed0_6_eq V c t) covered0_6

/-- Entry `i` of that array is row `i` of the projected features against the second projection vector. -/
theorem reg0_value6 (c : Dev nD) (X0 : FVec Ideal S8192x128 .f32) (X1 : FVec Ideal S128x64 .f32) (X3 : FVec Ideal S64x1 .f32)
    (h0 : V c main_arg0 = X0) (h1 : V c main_arg2 = X1) (h3 : V c main_v1 = X3) (i : Fin 8192) :
    (dat0 V c).arrAt 6 cfg0.N (ix2 i 0)
      = (∑ k : Fin 64, (∑ d : Fin 128, X0 (ix2 i d) * X1 (ix2 d k)) * X3 (ix2 k 0) : EReal) := by
  subst h0 h1 h3
  exact congrFun (arr0_6 V c) (ix2 i 0)

end Values

end Cert.KernelIdeal.Hand

end
-- ==== Proof.KI.Reg1Vals.lean ====
import proofs.«132961_j14972255994171_2_alg».proof.Proof.KI.Reg1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel call: what each case leaves, as the kernel's own operations of what it loads -/

theorem hz2 : (![0, 0] : Fin 2 → Nat) = fun _ => 0 := funext fun a => by fin_cases a <;> rfl

/-- The key/value tile of the projected features a point reads: 4096 rows of the resident array, from the row the
    kernel computes out of its second grid coordinate. -/
def whTile (i : grid1.Coords) (x3 : Vec F S8192x64 .bf16) : Vec F S4096x64 .bf16 :=
  View.ld x3 (Rect.unit (s := S8192x64) (k1_off1 i) S4096x64.size (k1_off1_inb i))

/-- One step of the running maximum: the old maximum `m` against the tile's row maxima. -/
def stepM (x0 : Vec F S512x1 .f32) (x1 : Vec F S1x4096 .f32) (x2 : Vec F S512x4096 .i32) (m : Vec F S512x1 .f32) : Vec F S512x1 .f32 :=
  k1_pay3 (k1_pay9 x0 x1 x2 m)
/-- One step of the running normaliser: the old one `l` rescaled from the old maximum `m` to the new, plus the tile's row sums. -/
def stepL (x0 : Vec F S512x1 .f32) (x1 : Vec F S1x4096 .f32) (x2 : Vec F S512x4096 .i32) (m l : Vec F S512x1 .f32) : Vec F S512x1 .f32 :=
  k1_pay1 (k1_pay12 x0 x1 x2 m m l)
/-- One step of the running weighted sum: the old one `acc` rescaled, plus the tile's exponentials against the tile's projected rows. -/
def stepAcc (i : grid1.Coords) (x0 : Vec F S512x1 .f32) (x1 : Vec F S1x4096 .f32) (x2 : Vec F S512x4096 .i32) (x3 : Vec F S8192x64 .bf16)
    (m : Vec F S512x1 .f32) (acc : Vec F S512x64 .f32) : Vec F S512x64 .f32 :=
  k1_pay2 (k1_pay10 x0 x1 x2 m m) (k1_pay11 x0 x1 x2 m) (whTile i x3) acc

/-! ## A last tile (the scratch at `xs0`, `xs1`, `xs2`) -/

theorem sout1_B_0_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) :
    sout1_B_0 c i arg2 harg2 arg3 harg3 arg4 harg4 arg5 harg5 arg6 harg6 arg7 harg7 arg8 harg8 arg9 harg9 hc0 hc1 x0 x1 x2 x3 xs0 xs1 xs2 = stepM x0 x1 x2 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

theorem sout1_B_1_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) :
    sout1_B_1 c i arg2 harg2 arg3 harg3 arg4 harg4 arg5 harg5 arg6 harg6 arg7 harg7 arg8 harg8 arg9 harg9 hc0 hc1 x0 x1 x2 x3 xs0 xs1 xs2 = stepL x0 x1 x2 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

theorem sout1_B_2_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) :
    sout1_B_2 c i arg2 harg2 arg3 harg3 arg4 harg4 arg5 harg5 arg6 harg6 arg7 harg7 arg8 harg8 arg9 harg9 hc0 hc1 x0 x1 x2 x3 xs0 xs1 xs2 = stepAcc i x0 x1 x2 x3 xs0 xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

theorem out1_B_4_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i)
    (x0 : Vec F S512x1 .f32) (x1 : Vec F S1x4096 .f32) (x2 : Vec F S512x4096 .i32) (x3 : Vec F S8192x64 .bf16) (xs0 : Vec F S512x1 .f32) (xs1 : Vec F S512x1 .f32) (xs2 : Vec F S512x64 .f32) :
    out1_B_4 c i arg2 harg2 arg3 harg3 arg4 harg4 arg5 harg5 arg6 harg6 arg7 harg7 arg8 harg8 arg9 harg9 hc0 hc1 x0 x1 x2 x3 xs0 xs1 xs2 = k1_pay4 (stepAcc i x0 x1 x2 x3 xs0 xs2) (stepL x0 x1 x2 xs0 xs1) := by
  unfold out1_B_4
  rw [View.read_writes_eq_canon _ _ _ (cover1_B_4 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

/-! ## A first tile (the scratch reset to minus infinity, zero, zero) -/

theorem sout1_A_0_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) :
    sout1_A_0 c i arg2 harg2 arg3 harg3 arg4 harg4 arg5 harg5 arg6 harg6 arg7 harg7 arg8 harg8 arg9 harg9 hc0 hc1 x0 x1 x2 x3 = stepM x0 x1 x2 k1_pay5 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

theorem sout1_A_1_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) :
    sout1_A_1 c i arg2 harg2 arg3 harg3 arg4 harg4 arg5 harg5 arg6 harg6 arg7 harg7 arg8 harg8 arg9 harg9 hc0 hc1 x0 x1 x2 x3 = stepL x0 x1 x2 k1_pay5 k1_pay6 := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

theorem sout1_A_2_eq (c : Dev nD) (i : grid1.Coords) (arg2 : Memref sig .tc .vmem S512x1 .f32) (harg2 : arg2.IsWhole) (arg3 : Memref sig .tc .vmem S1x4096 .f32) (harg3 : arg3.IsWhole) (arg4 : Memref sig .tc .vmem S512x4096 .i32) (harg4 : arg4.IsWhole) (arg5 : Memref sig .tc .vmem S8192x64 .bf16) (harg5 : arg5.IsWhole) (arg6 : Memref sig .tc .vmem S512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : ¬cond1_1 i)
    (x0 : Vec F S512x1 .f32) (x1 : Vec F S1x4096 .f32) (x2 : Vec F S512x4096 .i32) (x3 : Vec F S8192x64 .bf16) :
    sout1_A_2 c i arg2 harg2 arg3 harg3 arg4 harg4 arg5 harg5 arg6 harg6 arg7 harg7 arg8 harg8 arg9 harg9 hc0 hc1 x0 x1 x2 x3 = stepAcc i x0 x1 x2 x3 k1_pay5 k1_pay7 := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S512x1) hz2, View.ld_unit_zero (S := S1x4096) hz2, View.ld_unit_zero (S := S512x4096) hz2, View.ld_unit_zero (S := S512x64) hz2,
    View.readCov_unit_zero (S := S512x1) _ hz2, View.readCov_unit_zero (S := S512x64) _ hz2]
  rfl

end Cert.KernelIdeal.Hand

end
-- ==== Proof.KI.Payload1.lean ====
import proofs.«132961_j14972255994171_2_alg».proof.Proof.Gen.KernelIdeal.Skeleton
import proofs.«132961_j14972255994171_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen
open scoped BigOperators

/-! ## Two layout operations read at an index: the column forms -/

section Layout
variable {α : Type}

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The index a reduction over the columns of a `512 × 4096` block inserts at row `p`, column `q`. -/
theorem lift_row (p : Fin 512) (q : Fin 4096) :
    reduces_S512x4096_S512.lift (ix1 p) q = ix2 p q := by
  funext c
  match c with
  | ⟨0, _⟩ => rfl
  | ⟨1, _⟩ => rfl

/-! ## The second kernel's payloads -/

/-- The masked score of a pair: the edge value where the adjacency word is positive, the stand-in elsewhere. -/
theorem k1_pay8_apply (v3 : Vec Ideal S512x1 .f32) (v5 : Vec Ideal S1x4096 .f32) (v15 : Vec Ideal S512x4096 .i32)
    (p : Fin 512) (q : Fin 4096) :
    k1_pay8 v3 v5 v15 (ix2 p q) = Cert.Gat.score (v15 (ix2 p q)) (Cert.Gat.leaky (v3 (ix2 p 0) + v5 (ix2 0 q))) := by
  have e : (addf (broadcastTo S512x4096 (shapeCast S512x1 v3 shapeCasts_S512x1_S512x1) broadcasts_S512x1_S512x4096)
      (broadcastTo S512x4096 (shapeCast S1x4096 v5 shapeCasts_S1x4096_S1x4096) broadcasts_S1x4096_S512x4096) : FVec Ideal S512x4096 .f32) (ix2 p q)
      = v3 (ix2 p 0) + v5 (ix2 0 q) := by
    rw [addf_apply, shapeCast_self, shapeCast_self, broadcastTo_a1_ab_apply, broadcastTo_1b_ab_apply]
  unfold Gen.k1_pay8 Cert.Gat.score Cert.Gat.leaky
  rw [← e]
  rfl

/-- The running maximum: the old one against the tile's row maximum. -/
theorem k1_pay9_apply (v3 : Vec Ideal S512x1 .f32) (v5 : Vec Ideal S1x4096 .f32) (v15 : Vec Ideal S512x4096 .i32)
    (v20 : Vec Ideal S512x1 .f32) (p : Fin 512) :
    k1_pay9 v3 v5 v15 v20 (ix2 p 0)
      = max (v20 (ix2 p 0)) (Finset.univ.fold max Cert.Gat.negInf (fun q : Fin 4096 => k1_pay8 v3 v5 v15 (ix2 p q))) := by
  unfold Gen.k1_pay9
  rw [maximumf_apply, shapeCast_a_a1_apply]
  refine congrArg (max (v20 (ix2 p 0)))
    ((Ideal.multiReduction_maximumf_single (k1_pay8 v3 v5 v15) _ reduces_S512x4096_S512 _ _ (ix1 p)).trans ?_)
  exact congrArg (fun f : Fin 4096 → EReal => Finset.univ.fold max Cert.Gat.negInf f)
    (funext fun q => congrArg (k1_pay8 v3 v5 v15) (lift_row p q))

/-- The factor the old normaliser and weighted sum are rescaled by. -/
theorem k1_pay10_apply (v3 : Vec Ideal S512x1 .f32) (v5 : Vec Ideal S1x4096 .f32) (v15 : Vec Ideal S512x4096 .i32)
    (v20 : Vec Ideal S512x1 .f32) (v24 : Vec Ideal S512x1 .f32) (p : Fin 512) :
    k1_pay10 v3 v5 v15 v20 v24 (ix2 p 0) = Ideal.exp (v24 (ix2 p 0) - k1_pay9 v3 v5 v15 v20 (ix2 p 0)) := by
  unfold Gen.k1_pay10
  rfl

/-- The tile's exponentials against the new maximum. -/
theorem k1_pay11_apply (v3 : Vec Ideal S512x1 .f32) (v5 : Vec Ideal S1x4096 .f32) (v15 : Vec Ideal S512x4096 .i32)
    (v20 : Vec Ideal S512x1 .f32) (p : Fin 512) (q : Fin 4096) :
    k1_pay11 v3 v5 v15 v20 (ix2 p q) = Ideal.exp (k1_pay8 v3 v5 v15 (ix2 p q) - k1_pay9 v3 v5 v15 v20 (ix2 p 0)) := by
  unfold Gen.k1_pay11
  show Ideal.exp (k1_pay8 v3 v5 v15 (ix2 p q)
    - broadcastTo S512x4096 (k1_pay9 v3 v5 v15 v20) broadcasts_S512x1_S512x4096 (ix2 p q)) = _
  rw [broadcastTo_a1_ab_apply]

/-- The running normaliser: the old one rescaled plus the tile's row sum. -/
theorem k1_pay12_apply (v3 : Vec Ideal S512x1 .f32) (v5 : Vec Ideal S1x4096 .f32) (v15 : Vec Ideal S512x4096 .i32)
    (v20 : Vec Ideal S512x1 .f32) (v24 : Vec Ideal S512x1 .f32) (v30 : Vec Ideal S512x1 .f32) (p : Fin 512) :
    k1_pay12 v3 v5 v15 v20 v24 v30 (ix2 p 0)
      = k1_pay10 v3 v5 v15 v20 v24 (ix2 p 0) * v30 (ix2 p 0) + ∑ q : Fin 4096, k1_pay11 v3 v5 v15 v20 (ix2 p q) := by
  unfold Gen.k1_pay12
  rw [addf_apply, mulf_apply, shapeCast_a_a1_apply]
  refine congrArg (k1_pay10 v3 v5 v15 v20 v24 (ix2 p 0) * v30 (ix2 p 0) + ·)
    ((Ideal.multiReduction_add_single (k1_pay11 v3 v5 v15 v20) _ reduces_S512x4096_S512 _ _ (ix1 p)).trans ?_)
  exact Finset.sum_congr rfl fun q _ => congrArg (k1_pay11 v3 v5 v15 v20) (lift_row p q)

section

theorem lhsC_0 (i : S512x64.Idx) (q : (dot_S512x4096_S4096x64_S512x64_1_0_0_1_n_n).contr.Idx) :
    ((dot_S512x4096_S4096x64_S512x64_1_0_0_1_n_n).lhsIdx i q 0).val = (i 0).val := by
  unfold DotDims.lhsIdx
  rw [dif_neg (show ¬(0 : Fin S512x4096.rank) ∈ (dot_S512x4096_S4096x64_S512x64_1_0_0_1_n_n).lhsBatch by decide),
    dif_pos (show (0 : Fin S512x4096.rank) ∈ (dot_S512x4096_S4096x64_S512x64_1_0_0_1_n_n).lhsNonContracting by decide)]
  rfl
theorem lhsC_1 (i : S512x64.Idx) (q : (dot_S512x4096_S4096x64_S512x64_1_0_0_1_n_n).contr.Idx) :
    ((dot_S512x4096_S4096x64_S512x64_1_0_0_1_n_n).lhsIdx i q 1).val = (q ⟨0, by decide⟩).val :=
  (dot_S512x4096_S4096x64_S512x64_1_0_0_1_n_n).lhsIdx_val_of_single rfl i q
theorem rhsC_0 (i : S512x64.Idx) (q : (dot_S512x4096_S4096x64_S512x64_1_0_0_1_n_n).contr.Idx) :
    ((dot_S512x4096_S4096x64_S512x64_1_0_0_1_n_n).rhsIdx i q 0).val = (q ⟨0, by decide⟩).val :=
  (dot_S512x4096_S4096x64_S512x64_1_0_0_1_n_n).rhsIdx_val_of_single rfl i q
theorem rhsC_1 (i : S512x64.Idx) (q : (dot_S512x4096_S4096x64_S512x64_1_0_0_1_n_n).contr.Idx) :
    ((dot_S512x4096_S4096x64_S512x64_1_0_0_1_n_n).rhsIdx i q 1).val = (i 1).val := by
  unfold DotDims.rhsIdx
  rw [dif_neg (show ¬(1 : Fin S4096x64.rank) ∈ (dot_S512x4096_S4096x64_S512x64_1_0_0_1_n_n).rhsBatch by decide),
    dif_pos (show (1 : Fin S4096x64.rank) ∈ (dot_S512x4096_S4096x64_S512x64_1_0_0_1_n_n).rhsNonContracting by decide)]
  rfl

/-- The `512 × 4096` by `4096 × 64` product into the zero accumulator, read at `(p, c)`: the sum over the 4096 inner coordinates. -/
theorem matmulC_apply {φ₁ φ₂ : FTy} (lhs : FVec Ideal S512x4096 φ₁) (rhs : FVec Ideal S4096x64 φ₂) (p : Fin 512) (c : Fin 64) :
    (matmul dot_S512x4096_S4096x64_S512x64_1_0_0_1_n_n none lhs rhs (constant S512x64 .f32 0x00000000#32) : FVec Ideal S512x64 .f32) (ix2 p c)
      = ∑ q : Fin 4096, lhs (ix2 p q) * rhs (ix2 q c) := by
  simp only [matmul]
  rw [Ideal.matmul_constant_zero_apply, ← Equiv.sum_comp (contrEquiv1 dot_S512x4096_S4096x64_S512x64_1_0_0_1_n_n 4096 rfl rfl).symm]
  refine Finset.sum_congr rfl fun q _ => ?_
  have hk := contrEquiv1_symm_val dot_S512x4096_S4096x64_S512x64_1_0_0_1_n_n 4096 rfl rfl q
  have el : (dot_S512x4096_S4096x64_S512x64_1_0_0_1_n_n).lhsIdx (ix2 p c) ((contrEquiv1 dot_S512x4096_S4096x64_S512x64_1_0_0_1_n_n 4096 rfl rfl).symm q) = ix2 p q :=
    funext fun a => Fin.ext (by
      match a with
      | ⟨0, _⟩ => exact lhsC_0 _ _
      | ⟨1, _⟩ => exact (lhsC_1 _ _).trans hk)
  have er : (dot_S512x4096_S4096x64_S512x64_1_0_0_1_n_n).rhsIdx (ix2 p c) ((contrEquiv1 dot_S512x4096_S4096x64_S512x64_1_0_0_1_n_n 4096 rfl rfl).symm q) = ix2 q c :=
    funext fun a => Fin.ext (by
      match a with
      | ⟨0, _⟩ => exact (rhsC_0 _ _).trans hk
      | ⟨1, _⟩ => exact rhsC_1 _ _)
  rw [el, er]
end

/-- The running weighted sum: the old one rescaled plus the tile's exponentials against the tile's projected rows. -/
theorem k1_pay2_apply (v26 : FVec Ideal S512x1 .f32) (v29 : FVec Ideal S512x4096 .f32) (v41 : Vec Ideal S4096x64 .bf16)
    (v43 : Vec Ideal S512x64 .f32) (p : Fin 512) (k : Fin 64) :
    k1_pay2 v26 v29 v41 v43 (ix2 p k)
      = v26 (ix2 p 0) * v43 (ix2 p k) + ∑ q : Fin 4096, v29 (ix2 p q) * v41 (ix2 q k) := by
  unfold Gen.k1_pay2
  rw [shapeCast_self, addf_apply, mulf_apply, broadcastTo_a1_ab_apply, shapeCast_self, matmulC_apply]
  rfl

/-- The closing unit on the quotient of the weighted sum by the normaliser. -/
theorem k1_pay4_apply (v58 : Vec Ideal S512x64 .f32) (v59 : Vec Ideal S512x1 .f32) (p : Fin 512) (k : Fin 64) :
    k1_pay4 v58 v59 (ix2 p k) = Cert.Gat.eluKer (Ideal.div (v58 (ix2 p k)) (v59 (ix2 p 0))) := by
  have e : (divf v58 (broadcastTo S512x64 v59 broadcasts_S512x1_S512x64) : FVec Ideal S512x64 .f32) (ix2 p k)
      = Ideal.div (v58 (ix2 p k)) (v59 (ix2 p 0)) := by
    rw [divf_apply, broadcastTo_a1_ab_apply]
  unfold Gen.k1_pay4 Cert.Gat.eluKer
  rw [← e]
  rfl

/-- The stored normaliser, maximum and the three initial values are what they are given as. -/
theorem k1_pay1_apply (v34 : FVec Ideal S512x1 .f32) (j : S512x1.Idx) : k1_pay1 v34 j = v34 j := by
  unfold Gen.k1_pay1
  rw [shapeCast_self]
theorem k1_pay3_apply (v23 : FVec Ideal S512x1 .f32) (j : S512x1.Idx) : k1_pay3 v23 j = v23 j := by
  unfold Gen.k1_pay3
  rw [shapeCast_self]
theorem k1_pay5_apply (j : S512x1.Idx) : k1_pay5 (F := Ideal) j = Cert.Gat.negInf := by
  unfold Gen.k1_pay5
  rw [shapeCast_self]
  rfl
theorem k1_pay6_apply (j : S512x1.Idx) : k1_pay6 (F := Ideal) j = Cert.Gat.zeroF := by
  unfold Gen.k1_pay6
  rw [shapeCast_self]
  rfl
theorem k1_pay7_apply (j : S512x64.Idx) : k1_pay7 (F := Ideal) j = Cert.Gat.zeroF := by
  unfold Gen.k1_pay7
  rw [shapeCast_self]
  rfl

end Cert.KernelIdeal.PayVal

end
-- ==== Proof.Algebra.lean ====
/-
  The two ways of computing the attention layer agree on real inputs.

  Fix a row.  With real scores `σ j`, a real column `ω j` of the projected features and any real numbers
  `m0`, `M`:  `exp (m0 − M) · exp (σ j − m0) = exp (σ j − M)`, so rescaling the first tile's running
  normaliser and weighted sum by `exp (m0 − M)` and adding the second tile's gives the whole row's
  `L = ∑ exp (σ j − M)` and `A = ∑ exp (σ j − M) · ω j`; and `A / L = ∑ (exp (σ j − M) / L) · ω j` because
  `L > 0`.  The running maximum after two tiles is the row's maximum because a maximum over the row is the
  maximum of the maxima over its two halves.  The two closing units agree on every extended real.
-/
import proofs.«132961_j14972255994171_2_alg».proof.Proof.Spec
import Idealize.ShloMosaic.PureOps.Ideal.Laws

noncomputable section

open Idealize.ShloMosaic
open scoped BigOperators

namespace Cert.Gat

/-! ### The literals -/

theorem zeroF_eq : zeroF = 0 := Ideal.ofBits_zero_f32
theorem negInf_eq : negInf = ⊥ := by simp [negInf, Ideal.ofBits, Ideal.ieee]
theorem oneF_eq : oneF = 1 := by
  simp [oneF, Ideal.ofBits, Ideal.ieee]
  norm_cast
  norm_num
theorem slope_real : ∃ r : ℝ, slope = (r : EReal) := by
  simp [slope, Ideal.ofBits, Ideal.ieee]
  exact ⟨_, (EReal.coe_mul _ _).symm⟩
theorem negBig_real : ∃ r : ℝ, negBig = (r : EReal) := by
  simp [negBig, Ideal.ofBits, Ideal.ieee]
  exact ⟨-(16763806 * 2 ^ 29), by push_cast; rfl⟩

/-! ### Sums and maxima of real numbers inside the extended reals -/

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is a real. -/
theorem fold_max_real {ι : Type} (s : Finset ι) (hs : s.Nonempty) (f : ι → ℝ) :
    ∃ r : ℝ, s.fold max (⊥ : EReal) (fun j => (f j : EReal)) = (r : EReal) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]; exact (EReal.coe_strictMono.monotone.map_max).symm

/-- A row is its two tiles: every column is column `jj` of tile `0` or of tile `1`. -/
theorem exists_blk (j : Fin 8192) : (∃ jj : Fin 4096, j = blk 0 jj) ∨ (∃ jj : Fin 4096, j = blk 1 jj) := by
  by_cases hj : j.val < 4096
  · exact Or.inl ⟨⟨j.val, hj⟩, Fin.ext (by simp [blk])⟩
  · exact Or.inr ⟨⟨j.val - 4096, by omega⟩, Fin.ext (by simp [blk]; omega)⟩

/-- A sum over the row is the sum over the first tile plus the sum over the second. -/
theorem sum_tiles {M : Type} [AddCommMonoid M] (g : Fin 8192 → M) :
    ∑ j : Fin 8192, g j = ∑ jj : Fin 4096, g (blk 0 jj) + ∑ jj : Fin 4096, g (blk 1 jj) := by
  have h := Fin.sum_univ_add (a := 4096) (b := 4096) (f := (g : Fin (4096 + 4096) → M))
  rw [show (∑ j : Fin 8192, g j) = ∑ j : Fin (4096 + 4096), (g : Fin (4096 + 4096) → M) j from rfl, h]
  congr 1 <;> exact Finset.sum_congr rfl fun jj _ => congrArg g (Fin.ext (by simp [blk]))

/-- A maximum over the row is the maximum of the maxima over its two tiles. -/
theorem fold_max_tiles (g : Fin 8192 → EReal) :
    Finset.univ.fold max (⊥ : EReal) g
      = max (Finset.univ.fold max (⊥ : EReal) fun jj : Fin 4096 => g (blk 0 jj))
            (Finset.univ.fold max (⊥ : EReal) fun jj : Fin 4096 => g (blk 1 jj)) := by
  refine eq_of_forall_ge_iff fun c => ?_
  rw [Finset.fold_max_le, max_le_iff, Finset.fold_max_le, Finset.fold_max_le]
  constructor
  · rintro ⟨-, h⟩
    exact ⟨⟨bot_le, fun jj _ => h _ (Finset.mem_univ _)⟩, ⟨bot_le, fun jj _ => h _ (Finset.mem_univ _)⟩⟩
  · rintro ⟨⟨-, h0⟩, ⟨-, h1⟩⟩
    refine ⟨bot_le, fun j _ => ?_⟩
    rcases exists_blk j with ⟨jj, rfl⟩ | ⟨jj, rfl⟩
    · exact h0 jj (Finset.mem_univ _)
    · exact h1 jj (Finset.mem_univ _)

/-! ### The real identities behind the rescaling -/

/-- Rescaling the first tile's normaliser from its own maximum `m0` to `M` and adding the second tile's gives the row's. -/
theorem real_norm (σ : Fin 8192 → ℝ) (m0 M : ℝ) :
    Real.exp (m0 - M) * (∑ jj : Fin 4096, Real.exp (σ (blk 0 jj) - m0)) + ∑ jj : Fin 4096, Real.exp (σ (blk 1 jj) - M)
      = ∑ j : Fin 8192, Real.exp (σ j - M) := by
  rw [sum_tiles (fun j => Real.exp (σ j - M)), Finset.mul_sum]
  congr 1
  exact Finset.sum_congr rfl fun jj _ => by rw [← Real.exp_add]; congr 1; ring

/-- The same for the weighted sums. -/
theorem real_acc (σ ω : Fin 8192 → ℝ) (m0 M : ℝ) :
    Real.exp (m0 - M) * (∑ jj : Fin 4096, Real.exp (σ (blk 0 jj) - m0) * ω (blk 0 jj))
        + ∑ jj : Fin 4096, Real.exp (σ (blk 1 jj) - M) * ω (blk 1 jj)
      = ∑ j : Fin 8192, Real.exp (σ j - M) * ω j := by
  rw [sum_tiles (fun j => Real.exp (σ j - M) * ω j), Finset.mul_sum]
  congr 1
  exact Finset.sum_congr rfl fun jj _ => by rw [← mul_assoc, ← Real.exp_add]; congr 2; ring

/-! ### A row, computed both ways -/

section Row
variable (s w : Fin 8192 → EReal)

/-- The running maximum after the first tile and after the second. -/
def rM0 : EReal := max negInf (Finset.univ.fold max negInf (fun jj : Fin 4096 => s (blk 0 jj)))
def rM1 : EReal := max (rM0 s) (Finset.univ.fold max negInf (fun jj : Fin 4096 => s (blk 1 jj)))
/-- The running normaliser and weighted sum after the first tile and after the second. -/
def rL0 : EReal := Ideal.exp (negInf - rM0 s) * zeroF + ∑ jj : Fin 4096, Ideal.exp (s (blk 0 jj) - rM0 s)
def rAcc0 : EReal :=
  Ideal.exp (negInf - rM0 s) * zeroF + ∑ jj : Fin 4096, Ideal.exp (s (blk 0 jj) - rM0 s) * w (blk 0 jj)
def rL1 : EReal := Ideal.exp (rM0 s - rM1 s) * rL0 s + ∑ jj : Fin 4096, Ideal.exp (s (blk 1 jj) - rM1 s)
def rAcc1 : EReal :=
  Ideal.exp (rM0 s - rM1 s) * rAcc0 s w + ∑ jj : Fin 4096, Ideal.exp (s (blk 1 jj) - rM1 s) * w (blk 1 jj)
/-- The one-pass maximum, normaliser and weighted sum of quotients. -/
def rMax : EReal := max negInf (Finset.univ.fold max negInf s)
def rL : EReal := zeroF + ∑ j : Fin 8192, Ideal.exp (s j - rMax s)
def rHp : EReal := ∑ j : Fin 8192, Ideal.div (Ideal.exp (s j - rMax s)) (rL s) * w j

end Row

/-- On a row of real scores against a real column the two-tile quotient is the one-pass weighted sum of quotients. -/
theorem row_eq (σ ω : Fin 8192 → ℝ) :
    Ideal.div (rAcc1 (fun j => (σ j : EReal)) (fun j => (ω j : EReal))) (rL1 (fun j => (σ j : EReal)))
      = rHp (fun j => (σ j : EReal)) (fun j => (ω j : EReal)) := by
  obtain ⟨m0, hm0⟩ := fold_max_real Finset.univ Finset.univ_nonempty (fun jj : Fin 4096 => σ (blk 0 jj))
  obtain ⟨m1, hm1⟩ := fold_max_real Finset.univ Finset.univ_nonempty (fun jj : Fin 4096 => σ (blk 1 jj))
  have hM0 : rM0 (fun j => (σ j : EReal)) = (m0 : EReal) := by
    unfold rM0; rw [negInf_eq, hm0]; exact max_eq_right bot_le
  have hM1 : rM1 (fun j => (σ j : EReal)) = ((max m0 m1 : ℝ) : EReal) := by
    unfold rM1; rw [hM0, negInf_eq, hm1]; exact (EReal.coe_strictMono.monotone.map_max).symm
  have hMax : rMax (fun j => (σ j : EReal)) = ((max m0 m1 : ℝ) : EReal) := by
    unfold rMax
    rw [negInf_eq, fold_max_tiles (fun j => (σ j : EReal)), hm0, hm1, max_eq_right bot_le]
    exact (EReal.coe_strictMono.monotone.map_max).symm
  generalize max m0 m1 = M at hM1 hMax
  have hL0 : rL0 (fun j => (σ j : EReal)) = ((∑ jj : Fin 4096, Real.exp (σ (blk 0 jj) - m0) : ℝ) : EReal) := by
    unfold rL0; rw [hM0, zeroF_eq, mul_zero, zero_add, coe_sum]
    exact Finset.sum_congr rfl fun jj _ => by rw [← EReal.coe_sub, Ideal.exp_coe]
  have hA0 : rAcc0 (fun j => (σ j : EReal)) (fun j => (ω j : EReal))
      = ((∑ jj : Fin 4096, Real.exp (σ (blk 0 jj) - m0) * ω (blk 0 jj) : ℝ) : EReal) := by
    unfold rAcc0; rw [hM0, zeroF_eq, mul_zero, zero_add, coe_sum]
    exact Finset.sum_congr rfl fun jj _ => by rw [← EReal.coe_sub, Ideal.exp_coe, ← EReal.coe_mul]
  have hL1 : rL1 (fun j => (σ j : EReal)) = ((∑ j : Fin 8192, Real.exp (σ j - M) : ℝ) : EReal) := by
    unfold rL1
    rw [hM0, hM1, hL0, ← EReal.coe_sub, Ideal.exp_coe, ← EReal.coe_mul, ← real_norm σ m0 M, EReal.coe_add,
      coe_sum (f := fun jj : Fin 4096 => Real.exp (σ (blk 1 jj) - M))]
    rfl
  have hA1 : rAcc1 (fun j => (σ j : EReal)) (fun j => (ω j : EReal))
      = ((∑ j : Fin 8192, Real.exp (σ j - M) * ω j : ℝ) : EReal) := by
    unfold rAcc1
    rw [hM0, hM1, hA0, ← EReal.coe_sub, Ideal.exp_coe, ← EReal.coe_mul, ← real_acc σ ω m0 M, EReal.coe_add,
      coe_sum (f := fun jj : Fin 4096 => Real.exp (σ (blk 1 jj) - M) * ω (blk 1 jj))]
    rfl
  have hL : rL (fun j => (σ j : EReal)) = ((∑ j : Fin 8192, Real.exp (σ j - M) : ℝ) : EReal) := by
    unfold rL; rw [hMax, zeroF_eq, zero_add, coe_sum]
    exact Finset.sum_congr rfl fun j _ => by rw [← EReal.coe_sub, Ideal.exp_coe]
  have hpos : (∑ j : Fin 8192, Real.exp (σ j - M)) ≠ 0 :=
    (Finset.sum_pos (fun j _ => Real.exp_pos _) Finset.univ_nonempty).ne'
  generalize (∑ j : Fin 8192, Real.exp (σ j - M)) = L at hL1 hL hpos
  have hterm : ∀ j : Fin 8192,
      Ideal.div (Ideal.exp ((σ j : EReal) - (M : EReal))) (L : EReal) * (ω j : EReal)
        = ((Real.exp (σ j - M) * ω j * (1 / L) : ℝ) : EReal) := fun j => by
    rw [Ideal.div_coe hpos, ← EReal.coe_sub, Ideal.exp_coe, ← EReal.coe_mul, ← EReal.coe_mul]
    exact congrArg _ (by ring)
  rw [hA1, hL1, Ideal.div_coe hpos, ← EReal.coe_mul, Finset.sum_mul, coe_sum]
  unfold rHp
  rw [hL, hMax]
  exact Finset.sum_congr rfl fun j _ => (hterm j).symm

/-- The two closing units are one function. -/
theorem eluRef_eq_eluKer (x : EReal) : eluRef x = eluKer x := by
  unfold eluRef eluKer
  by_cases hc : Ideal.cmp .ogt x zeroF = 1
  · rw [if_pos hc, if_pos hc]
  · rw [if_neg hc, if_neg hc, if_neg hc, oneF_eq, one_mul]

/-! ### Real inputs give real scores -/

theorem leaky_real (x : ℝ) : ∃ r : ℝ, leaky (x : EReal) = (r : EReal) := by
  obtain ⟨c, hc⟩ := slope_real
  unfold leaky
  split_ifs
  · exact ⟨x, rfl⟩
  · exact ⟨c * x, by rw [hc, EReal.coe_mul]⟩

theorem score_real (w : BitVec 32) (e : ℝ) : ∃ r : ℝ, score w (e : EReal) = (r : EReal) := by
  obtain ⟨c, hc⟩ := negBig_real
  unfold score
  split_ifs
  · exact ⟨e, rfl⟩
  · exact ⟨c, hc⟩

/-- **The two computations agree** wherever every entry of the features, the weights and the attention vector is a
    real number (the adjacency matrix is arbitrary). -/
theorem kerOut_eq_refOut (h : Fin 8192 → Fin 128 → EReal) (adj : Fin 8192 → Fin 8192 → BitVec 32)
    (W : Fin 128 → Fin 64 → EReal) (a : Fin 128 → EReal)
    (hh : ∀ i d, ∃ r : ℝ, h i d = (r : EReal)) (hW : ∀ d k, ∃ r : ℝ, W d k = (r : EReal))
    (ha : ∀ r, ∃ x : ℝ, a r = (x : EReal)) (i : Fin 8192) (k : Fin 64) :
    kerOut h adj W a i k = refOut h adj W a i k := by
  choose hR hhR using hh
  choose WR hWR using hW
  choose aR haR using ha
  have hwh : ∀ i k, wh h W i k = ((∑ d : Fin 128, hR i d * WR d k : ℝ) : EReal) := fun i k => by
    unfold wh; rw [coe_sum]; exact Finset.sum_congr rfl fun d _ => by rw [hhR, hWR, EReal.coe_mul]
  have hrow : ∀ i, ∃ r : ℝ, rowT h W a i = (r : EReal) := fun i =>
    ⟨∑ k : Fin 64, (∑ d : Fin 128, hR i d * WR d k) * aR ⟨k.val, by omega⟩, by
      unfold rowT a1; rw [coe_sum]; exact Finset.sum_congr rfl fun k _ => by rw [hwh, haR, EReal.coe_mul]⟩
  have hcol : ∀ j, ∃ r : ℝ, colT h W a j = (r : EReal) := fun j =>
    ⟨∑ k : Fin 64, (∑ d : Fin 128, hR j d * WR d k) * aR ⟨64 + k.val, by omega⟩, by
      unfold colT a2; rw [coe_sum]; exact Finset.sum_congr rfl fun k _ => by rw [hwh, haR, EReal.coe_mul]⟩
  have hsc : ∀ i j, ∃ r : ℝ, sc h adj W a i j = (r : EReal) := fun i j => by
    obtain ⟨x, hx⟩ := hrow i
    obtain ⟨y, hy⟩ := hcol j
    obtain ⟨z, hz⟩ := leaky_real (x + y)
    unfold sc
    rw [hx, hy, ← EReal.coe_add, hz]
    exact score_real _ _
  choose σ hσ using hsc
  show eluKer (Ideal.div (rAcc1 (fun j => sc h adj W a i j) (fun j => wh h W j k)) (rL1 (fun j => sc h adj W a i j)))
    = eluRef (rHp (fun j => sc h adj W a i j) (fun j => wh h W j k))
  rw [eluRef_eq_eluKer, show (fun j => sc h adj W a i j) = fun j => ((σ i j : ℝ) : EReal) from funext (hσ i),
    show (fun j => wh h W j k) = fun j => ((∑ d : Fin 128, hR j d * WR d k : ℝ) : EReal) from funext fun j => hwh j k,
    row_eq]

end Cert.Gat

end
-- ==== Proof.KI.Reg1Value.lean ====
import proofs.«132961_j14972255994171_2_alg».proof.Proof.KI.Reg1Vals
import proofs.«132961_j14972255994171_2_alg».proof.Proof.KI.Payload1
import proofs.«132961_j14972255994171_2_alg».proof.Proof.Algebra

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # The second kernel call on the extended reals: its output array, entry by entry -/

/-! ## Where a point's blocks sit -/

/-- The printed index maps, decided over the grid: point `t` is row block `t / 2`, key/value tile `t % 2`. -/
theorem idx_facts1 : ∀ t : Fin cfg1.N,
    win1_0.index t (0 : Fin 2) = t.val / 2 ∧ win1_0.index t (1 : Fin 2) = 0
    ∧ win1_1.index t (0 : Fin 2) = 0 ∧ win1_1.index t (1 : Fin 2) = t.val % 2
    ∧ win1_2.index t (0 : Fin 2) = t.val / 2 ∧ win1_2.index t (1 : Fin 2) = t.val % 2
    ∧ win1_3.index t (0 : Fin 2) = 0 ∧ win1_3.index t (1 : Fin 2) = 0
    ∧ win1_4.index t (0 : Fin 2) = t.val / 2 ∧ win1_4.index t (1 : Fin 2) = 0
    ∧ ((grid1.coords t) 1).val = t.val % 2 :=
  (by decide +kernel : ∀ t : Fin grid1.N, _)

/-- The row terms' block at point `t`: rows `512 (t / 2) …` of the column. -/
theorem iblk1_0_apply (c : Dev nD) (t : Fin cfg1.N) (p : Fin 512) (r : Fin 8192) (hr : r.val = 512 * (t.val / 2) + p.val)
    (R : FVec Ideal S8192x1 .f32) (hR : V c main_v2_1 = R) :
    (iblk1 V c 0 t : Vec Ideal S512x1 .f32) (ix2 p 0) = R (ix2 r 0) := by
  subst hR
  obtain ⟨e00, e01, -⟩ := idx_facts1 t
  unfold iblk1
  rw [View.read_apply]
  show V c main_v2_1 _ = V c main_v2_1 _
  congr 1
  funext a; apply Fin.ext
  match a with
  | ⟨0, _⟩ => show win1_0.index t 0 * 512 + 1 * p.val = r.val; rw [e00, hr]; omega
  | ⟨1, _⟩ => show win1_0.index t 1 * 1 + 1 * 0 = 0; rw [e01]

/-- The column terms' block at point `t`: columns `4096 (t % 2) …` of the row. -/
theorem iblk1_1_apply (c : Dev nD) (t : Fin cfg1.N) (q : Fin 4096) (j : Fin 8192) (hj : j.val = 4096 * (t.val % 2) + q.val)
    (C : FVec Ideal S1x8192 .f32) (hC : V c main_v3 = C) :
    (iblk1 V c 1 t : Vec Ideal S1x4096 .f32) (ix2 0 q) = C (ix2 0 j) := by
  subst hC
  obtain ⟨-, -, e10, e11, -⟩ := idx_facts1 t
  unfold iblk1
  rw [View.read_apply]
  show V c main_v3 _ = V c main_v3 _
  congr 1
  funext a; apply Fin.ext
  match a with
  | ⟨0, _⟩ => show win1_1.index t 0 * 1 + 1 * 0 = 0; rw [e10]
  | ⟨1, _⟩ => show win1_1.index t 1 * 4096 + 1 * q.val = j.val; rw [e11, hj]; omega

/-- The adjacency block at point `t`. -/
theorem iblk1_2_apply (c : Dev nD) (t : Fin cfg1.N) (p : Fin 512) (q : Fin 4096) (r j : Fin 8192)
    (hr : r.val = 512 * (t.val / 2) + p.val) (hj : j.val = 4096 * (t.val % 2) + q.val)
    (Adj : IVec S8192x8192 32) (hAdj : V c main_arg1 = Adj) :
    (iblk1 V c 2 t : Vec Ideal S512x4096 .i32) (ix2 p q) = Adj (ix2 r j) := by
  subst hAdj
  obtain ⟨-, -, -, -, e20, e21, -⟩ := idx_facts1 t
  unfold iblk1
  rw [View.read_apply]
  show V c main_arg1 _ = V c main_arg1 _
  congr 1
  funext a; apply Fin.ext
  match a with
  | ⟨0, _⟩ => show win1_2.index t 0 * 512 + 1 * p.val = r.val; rw [e20, hr]; omega
  | ⟨1, _⟩ => show win1_2.index t 1 * 4096 + 1 * q.val = j.val; rw [e21, hj]; omega

/-- The projected features are resident whole: the block at any point is the array. -/
theorem iblk1_3_apply (c : Dev nD) (t : Fin cfg1.N) (j : Fin 8192) (k : Fin 64)
    (Wh : FVec Ideal S8192x64 .bf16) (hWh : V c main_v2_0 = Wh) :
    (iblk1 V c 3 t : Vec Ideal S8192x64 .bf16) (ix2 j k) = Wh (ix2 j k) := by
  subst hWh
  obtain ⟨-, -, -, -, -, -, e30, e31, -⟩ := idx_facts1 t
  unfold iblk1
  rw [View.read_apply]
  show V c main_v2_0 _ = V c main_v2_0 _
  congr 1
  funext a; apply Fin.ext
  match a with
  | ⟨0, _⟩ => show win1_3.index t 0 * 8192 + 1 * j.val = j.val; rw [e30]; omega
  | ⟨1, _⟩ => show win1_3.index t 1 * 64 + 1 * k.val = k.val; rw [e31]; omega

/-- The key/value tile the point at `t` loads: rows `4096 (t % 2) …` of the resident projected features. -/
theorem whTile_apply (t : Fin cfg1.N) (x3 : Vec Ideal S8192x64 .bf16) (q : Fin 4096) (k : Fin 64) (j : Fin 8192)
    (hj : j.val = 4096 * (t.val % 2) + q.val) :
    whTile (grid1.coords t) x3 (ix2 q k) = x3 (ix2 j k) := by
  obtain ⟨-, -, -, -, -, -, -, -, -, -, ekv⟩ := idx_facts1 t
  unfold whTile
  show x3 _ = x3 _
  congr 1
  funext a; apply Fin.ext
  match a with
  | ⟨0, _⟩ =>
    simp only [LoadRect.idx_apply, Rect.emb_apply, Rect.off_unit, Rect.stride_unit, Nat.one_mul, k1_off1_eq]
    show 4096 * ((grid1.coords t) 1).val + q.val = j.val
    rw [ekv, hj]
  | ⟨1, _⟩ =>
    simp only [LoadRect.idx_apply, Rect.emb_apply, Rect.off_unit, Rect.stride_unit, Nat.one_mul, k1_off1_eq]
    show 0 + k.val = k.val
    omega

/-! ## One step of the three running quantities, read at an index -/

theorem stepM_apply (x0 : Vec Ideal S512x1 .f32) (x1 : Vec Ideal S1x4096 .f32) (x2 : Vec Ideal S512x4096 .i32) (m : Vec Ideal S512x1 .f32) (p : Fin 512) :
    stepM x0 x1 x2 m (ix2 p 0)
      = max (m (ix2 p 0)) (Finset.univ.fold max Cert.Gat.negInf (fun q : Fin 4096 => k1_pay8 x0 x1 x2 (ix2 p q))) := by
  unfold stepM
  rw [k1_pay3_apply, k1_pay9_apply]

theorem stepL_apply (x0 : Vec Ideal S512x1 .f32) (x1 : Vec Ideal S1x4096 .f32) (x2 : Vec Ideal S512x4096 .i32) (m l : Vec Ideal S512x1 .f32) (p : Fin 512) :
    stepL x0 x1 x2 m l (ix2 p 0)
      = Ideal.exp (m (ix2 p 0) - stepM x0 x1 x2 m (ix2 p 0)) * l (ix2 p 0)
        + ∑ q : Fin 4096, Ideal.exp (k1_pay8 x0 x1 x2 (ix2 p q) - stepM x0 x1 x2 m (ix2 p 0)) := by
  unfold stepL stepM
  rw [k1_pay1_apply, k1_pay12_apply, k1_pay10_apply, k1_pay3_apply]
  congr 1
  exact Finset.sum_congr rfl fun q _ => k1_pay11_apply x0 x1 x2 m p q

theorem stepAcc_apply (i : grid1.Coords) (x0 : Vec Ideal S512x1 .f32) (x1 : Vec Ideal S1x4096 .f32) (x2 : Vec Ideal S512x4096 .i32) (x3 : Vec Ideal S8192x64 .bf16)
    (m : Vec Ideal S512x1 .f32) (acc : Vec Ideal S512x64 .f32) (p : Fin 512) (k : Fin 64) :
    stepAcc i x0 x1 x2 x3 m acc (ix2 p k)
      = Ideal.exp (m (ix2 p 0) - stepM x0 x1 x2 m (ix2 p 0)) * acc (ix2 p k)
        + ∑ q : Fin 4096, Ideal.exp (k1_pay8 x0 x1 x2 (ix2 p q) - stepM x0 x1 x2 m (ix2 p 0)) * whTile i x3 (ix2 q k) := by
  unfold stepAcc stepM
  rw [k1_pay2_apply, k1_pay10_apply, k1_pay3_apply]
  congr 1
  exact Finset.sum_congr rfl fun q _ => congrArg (· * whTile i x3 (ix2 q k)) (k1_pay11_apply x0 x1 x2 m p q)

/-! ## A node's score row and a column of the projected features, off the arrays the region is entered with -/

section Arrays

variable (R : FVec Ideal S8192x1 .f32) (C : FVec Ideal S1x8192 .f32) (Adj : IVec S8192x8192 32) (Wh : FVec Ideal S8192x64 .bf16)

/-- The masked scores of node `r` against every node, from the row terms `R`, the column terms `C` and the adjacency words `Adj`. -/
def sRow (r : Fin 8192) : Fin 8192 → EReal := fun j =>
  Cert.Gat.score (Adj (ix2 r j)) (Cert.Gat.leaky (R (ix2 r 0) + C (ix2 0 j)))
/-- Column `k` of the projected features `Wh`. -/
def wCol (k : Fin 64) : Fin 8192 → EReal := fun j => Wh (ix2 j k)

/-- The masked score the body computes at `(p, q)` of its blocks at point `t` is the score of node `512 (t / 2) + p`
    against node `4096 (t % 2) + q`. -/
theorem pay8_at (c : Dev nD) (hR : V c main_v2_1 = R) (hC : V c main_v3 = C) (hAdj : V c main_arg1 = Adj) (t : Fin cfg1.N) (p : Fin 512) (q : Fin 4096) (r : Fin 8192) (hr : r.val = 512 * (t.val / 2) + p.val)
    (b : Fin 2) (hb : b.val = t.val % 2) :
    k1_pay8 (iblk1 V c 0 t) (iblk1 V c 1 t) (iblk1 V c 2 t) (ix2 p q) = sRow R C Adj r (Cert.Gat.blk b q) := by
  have hj : (Cert.Gat.blk b q).val = 4096 * (t.val % 2) + q.val := by rw [← hb]; rfl
  rw [k1_pay8_apply, iblk1_0_apply V c t p r hr R hR, iblk1_1_apply V c t q (Cert.Gat.blk b q) hj C hC, iblk1_2_apply V c t p q r (Cert.Gat.blk b q) hr hj Adj hAdj]
  rfl

/-! ## What the buffers hold after a point, read at an index -/

/-- After an even point (the first key/value tile of row block `t / 2`), row `p` of the scratch holds the first tile's
    running maximum, normaliser and weighted sums of node `512 (t / 2) + p`. -/
theorem after_first (c : Dev nD) (hR : V c main_v2_1 = R) (hC : V c main_v3 = C) (hAdj : V c main_arg1 = Adj) (hWh : V c main_v2_0 = Wh) (t : Fin cfg1.N) (h0 : t.val % 2 = 0) (p : Fin 512) (r : Fin 8192) (hr : r.val = 512 * (t.val / 2) + p.val) :
    (outsAt1 V c t.val t.isLt).2.1 (ix2 p 0) = Cert.Gat.rM0 (sRow R C Adj r)
    ∧ (outsAt1 V c t.val t.isLt).2.2.1 (ix2 p 0) = Cert.Gat.rL0 (sRow R C Adj r)
    ∧ ∀ k : Fin 64, (outsAt1 V c t.val t.isLt).2.2.2 (ix2 p k) = Cert.Gat.rAcc0 (sRow R C Adj r) (wCol Wh k) := by
  have hb : (0 : Fin 2).val = t.val % 2 := by rw [h0]; rfl
  have hs : (fun q : Fin 4096 => k1_pay8 (iblk1 V c 0 t) (iblk1 V c 1 t) (iblk1 V c 2 t) (ix2 p q)) = fun q => sRow R C Adj r (Cert.Gat.blk 0 q) :=
    funext fun q => pay8_at V R C Adj c hR hC hAdj t p q r hr 0 hb
  have hM : stepM (iblk1 V c 0 t) (iblk1 V c 1 t) (iblk1 V c 2 t) (k1_pay5 (F := Ideal)) (ix2 p 0) = Cert.Gat.rM0 (sRow R C Adj r) := by
    rw [stepM_apply, k1_pay5_apply, hs]; rfl
  rw [outsAt1_first V c t h0]
  dsimp only
  refine ⟨?_, ?_, fun k => ?_⟩
  · rw [sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t)]
    exact hM
  · rw [sout1_A_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t)]
    rw [stepL_apply, hM, k1_pay5_apply, k1_pay6_apply]
    have hsum : (∑ q : Fin 4096, Ideal.exp (k1_pay8 (iblk1 V c 0 t) (iblk1 V c 1 t) (iblk1 V c 2 t) (ix2 p q) - Cert.Gat.rM0 (sRow R C Adj r)))
        = ∑ jj : Fin 4096, Ideal.exp (sRow R C Adj r (Cert.Gat.blk 0 jj) - Cert.Gat.rM0 (sRow R C Adj r)) :=
      Finset.sum_congr rfl fun q _ => by rw [pay8_at V R C Adj c hR hC hAdj t p q r hr 0 hb]
    rw [hsum]; rfl
  · rw [sout1_A_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (cond1_0_of_even t h0) (not_cond1_1_of_even t h0) (iblk1 V c 0 t) (iblk1 V c 1 t) (iblk1 V c 2 t) (iblk1 V c 3 t)]
    rw [stepAcc_apply, hM, k1_pay5_apply, k1_pay7_apply]
    have hsum : (∑ q : Fin 4096, Ideal.exp (k1_pay8 (iblk1 V c 0 t) (iblk1 V c 1 t) (iblk1 V c 2 t) (ix2 p q) - Cert.Gat.rM0 (sRow R C Adj r)) * whTile (grid1.coords t) (iblk1 V c 3 t) (ix2 q k))
        = ∑ jj : Fin 4096, Ideal.exp (sRow R C Adj r (Cert.Gat.blk 0 jj) - Cert.Gat.rM0 (sRow R C Adj r)) * wCol Wh k (Cert.Gat.blk 0 jj) :=
      Finset.sum_congr rfl fun q _ => by
        rw [pay8_at V R C Adj c hR hC hAdj t p q r hr 0 hb, whTile_apply t (iblk1 V c 3 t) q k (Cert.Gat.blk 0 q) (by rw [← hb]; rfl), iblk1_3_apply V c t _ k Wh hWh]
        rfl
    rw [hsum]; rfl

/-- The value a last tile stores, over any scratch contents that hold the first tile's quantities in row `p`. -/
theorem last_value (c : Dev nD) (hR : V c main_v2_1 = R) (hC : V c main_v3 = C) (hAdj : V c main_arg1 = Adj) (hWh : V c main_v2_0 = Wh) (t : Fin cfg1.N) (h1 : t.val % 2 = 1) (p : Fin 512) (r : Fin 8192) (hr : r.val = 512 * (t.val / 2) + p.val) (k : Fin 64)
    (mP lP : Vec Ideal S512x1 .f32) (aP : Vec Ideal S512x64 .f32)
    (hm : mP (ix2 p 0) = Cert.Gat.rM0 (sRow R C Adj r)) (hl : lP (ix2 p 0) = Cert.Gat.rL0 (sRow R C Adj r))
    (ha : aP (ix2 p k) = Cert.Gat.rAcc0 (sRow R C Adj r) (wCol Wh k)) :
    k1_pay4 (stepAcc (grid1.coords t) (iblk1 V c 0 t) (iblk1 V c 1 t) (iblk1 V c 2 t) (iblk1 V c 3 t) mP aP) (stepL (iblk1 V c 0 t) (iblk1 V c 1 t) (iblk1 V c 2 t) mP lP) (ix2 p k)
      = Cert.Gat.eluKer (Ideal.div (Cert.Gat.rAcc1 (sRow R C Adj r) (wCol Wh k)) (Cert.Gat.rL1 (sRow R C Adj r))) := by
  have hb : (1 : Fin 2).val = t.val % 2 := by rw [h1]; rfl
  have hs : (fun q : Fin 4096 => k1_pay8 (iblk1 V c 0 t) (iblk1 V c 1 t) (iblk1 V c 2 t) (ix2 p q)) = fun q => sRow R C Adj r (Cert.Gat.blk 1 q) :=
    funext fun q => pay8_at V R C Adj c hR hC hAdj t p q r hr 1 hb
  have hM : stepM (iblk1 V c 0 t) (iblk1 V c 1 t) (iblk1 V c 2 t) mP (ix2 p 0) = Cert.Gat.rM1 (sRow R C Adj r) := by
    rw [stepM_apply, hm, hs]; rfl
  rw [k1_pay4_apply, stepAcc_apply, stepL_apply, hM, hm, hl, ha]
  have hsumL : (∑ q : Fin 4096, Ideal.exp (k1_pay8 (iblk1 V c 0 t) (iblk1 V c 1 t) (iblk1 V c 2 t) (ix2 p q) - Cert.Gat.rM1 (sRow R C Adj r)))
      = ∑ jj : Fin 4096, Ideal.exp (sRow R C Adj r (Cert.Gat.blk 1 jj) - Cert.Gat.rM1 (sRow R C Adj r)) :=
    Finset.sum_congr rfl fun q _ => by rw [pay8_at V R C Adj c hR hC hAdj t p q r hr 1 hb]
  have hsumA : (∑ q : Fin 4096, Ideal.exp (k1_pay8 (iblk1 V c 0 t) (iblk1 V c 1 t) (iblk1 V c 2 t) (ix2 p q) - Cert.Gat.rM1 (sRow R C Adj r)) * whTile (grid1.coords t) (iblk1 V c 3 t) (ix2 q k))
      = ∑ jj : Fin 4096, Ideal.exp (sRow R C Adj r (Cert.Gat.blk 1 jj) - Cert.Gat.rM1 (sRow R C Adj r)) * wCol Wh k (Cert.Gat.blk 1 jj) :=
    Finset.sum_congr rfl fun q _ => by
      rw [pay8_at V R C Adj c hR hC hAdj t p q r hr 1 hb, whTile_apply t (iblk1 V c 3 t) q k (Cert.Gat.blk 1 q) (by rw [← hb]; rfl), iblk1_3_apply V c t _ k Wh hWh]
      rfl
  rw [hsumL, hsumA]; rfl

/-- After an odd point (the last key/value tile of row block `t / 2`), row `p` of the output window's staging buffer holds
    the layer's value at node `512 (t / 2) + p`. -/
theorem after_last (c : Dev nD) (hR : V c main_v2_1 = R) (hC : V c main_v3 = C) (hAdj : V c main_arg1 = Adj) (hWh : V c main_v2_0 = Wh) (t : Fin cfg1.N) (h0 : ¬t.val % 2 = 0) (p : Fin 512) (r : Fin 8192) (hr : r.val = 512 * (t.val / 2) + p.val) (k : Fin 64) :
    (outsAt1 V c t.val t.isLt).1 (ix2 p k)
      = Cert.Gat.eluKer (Ideal.div (Cert.Gat.rAcc1 (sRow R C Adj r) (wCol Wh k)) (Cert.Gat.rL1 (sRow R C Adj r))) := by
  have h1 : t.val % 2 = 1 := by omega
  have hlt : t.val - 1 < cfg1.N := Nat.lt_of_le_of_lt (Nat.sub_le _ _) t.isLt
  obtain ⟨hm, hl, ha⟩ := after_first V R C Adj Wh c hR hC hAdj hWh ⟨t.val - 1, hlt⟩ (show (t.val - 1) % 2 = 0 by omega) p r
    (show r.val = 512 * ((t.val - 1) / 2) + p.val by rw [hr]; omega)
  rw [outsAt1_last V c t h0]
  dsimp only
  rw [out1_B_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (not_cond1_0_of_odd t h0) (cond1_1_of_odd t h0) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  exact last_value V R C Adj Wh c hR hC hAdj hWh t h1 p r hr k _ _ _ hm hl (ha k)

/-! ## From the blocks to the array -/

/-- The layer's value at node `i`, feature `k`: the closing unit on the quotient of the two-tile weighted sum by the
    two-tile normaliser. -/
def gEntry (i : Fin 8192) (k : Fin 64) : EReal :=
  Cert.Gat.eluKer (Ideal.div (Cert.Gat.rAcc1 (sRow R C Adj i) (wCol Wh k)) (Cert.Gat.rL1 (sRow R C Adj i)))

/-- The whole output array. -/
def G1 : FVec Ideal S8192x64 .f32 := fun idx => gEntry R C Adj Wh ⟨(idx 0).val, (idx 0).isLt⟩ ⟨(idx 1).val, (idx 1).isLt⟩

/-- What an odd point writes back is its block of `G1`. -/
theorem flushed1_4_eq (c : Dev nD) (hR : V c main_v2_1 = R) (hC : V c main_v3 = C) (hAdj : V c main_arg1 = Adj) (hWh : V c main_v2_0 = Wh) (t : Fin cfg1.N) (hf : (cfg1.win 4).flush t = true) :
    (dat1 V c).flushed 4 t = ((cfg1.win 4).blk t).view.read (Elt Ideal) (G1 R C Adj Wh) := by
  have h1 : t.val % 2 = 1 := (flush1_4 t).mp hf
  have hN : t.val < 32 := lt_of_lt_of_eq t.isLt (show cfg1.N = 32 from N_1)
  obtain ⟨-, -, -, -, -, -, -, -, e40, e41, -⟩ := idx_facts1 t
  show (cfg1.win 4).cut (grid1.coords t) ((dat1 V c).after 4 t) = _
  rw [after1_4]
  refine funext fun (y : S512x64.Idx) => ?_
  show (outsAt1 V c t.val t.isLt).1 y = G1 R C Adj Wh (((cfg1.win 4).blk t).view.emb y)
  have hy0 : (y 0).val < 512 := (y 0).isLt
  have hy1 : (y 1).val < 64 := (y 1).isLt
  have hy : y = ix2 (⟨(y 0).val, hy0⟩ : Fin 512) (⟨(y 1).val, hy1⟩ : Fin 64) := funext fun a => by
    match a with
    | ⟨0, _⟩ => rfl
    | ⟨1, _⟩ => rfl
  have hlt : 512 * (t.val / 2) + (y 0).val < 8192 := by omega
  refine Eq.trans (congrArg (outsAt1 V c t.val t.isLt).1 hy) ?_
  refine (after_last V R C Adj Wh c hR hC hAdj hWh t (by omega) ⟨(y 0).val, hy0⟩ ⟨512 * (t.val / 2) + (y 0).val, hlt⟩ rfl ⟨(y 1).val, hy1⟩).trans ?_
  show gEntry R C Adj Wh _ _ = gEntry R C Adj Wh _ _
  congr 1 <;> apply Fin.ext
  · show 512 * (t.val / 2) + (y 0).val = win1_4.index t 0 * 512 + 1 * (y 0).val
    rw [e40]; omega
  · show (y 1).val = win1_4.index t 1 * 64 + 1 * (y 1).val
    rw [e41]; omega

/-- An index of the array is in point `t`'s block iff each coordinate is in the block's range on its axis. -/
theorem mem_blk1_4 (t : Fin cfg1.N) (i : S8192x64.Idx) :
    i ∈ ((cfg1.win 4).blk t).view.set ↔ ∀ a : Fin 2, win1_4.index t a * S512x64.size a ≤ (i a).val ∧ (i a).val < win1_4.index t a * S512x64.size a + S512x64.size a := by
  show i ∈ ((View.whole main_v4).slice (win1_4.rect t)).set ↔ _
  rw [View.set_slice_whole, Rect.mem_set_unit]
  exact Iff.rfl

/-- Every index of the array is in the block of the odd point of its row block. -/
theorem cover1_4 (i : S8192x64.Idx) : ∃ t : Fin cfg1.N, (cfg1.win 4).flush t = true ∧ i ∈ ((cfg1.win 4).blk t).view.set := by
  have hi0 : (i 0).val < 8192 := (i 0).isLt
  have hi1 : (i 1).val < 64 := (i 1).isLt
  have hN : cfg1.N = 32 := N_1
  obtain ⟨T, hT⟩ : ∃ T : Fin cfg1.N, T.val = 2 * ((i 0).val / 512) + 1 := ⟨⟨2 * ((i 0).val / 512) + 1, by rw [hN]; omega⟩, rfl⟩
  obtain ⟨-, -, -, -, -, -, -, -, e40, e41, -⟩ := idx_facts1 T
  refine ⟨T, (flush1_4 T).mpr (by rw [hT]; omega), ?_⟩
  rw [mem_blk1_4]
  intro a
  match a with
  | ⟨0, _⟩ =>
    show win1_4.index T 0 * 512 ≤ (i 0).val ∧ (i 0).val < win1_4.index T 0 * 512 + 512
    rw [e40, hT]; omega
  | ⟨1, _⟩ =>
    show win1_4.index T 1 * 64 ≤ (i 1).val ∧ (i 1).val < win1_4.index T 1 * 64 + 64
    rw [e41]; omega

/-- The output array after the region: `G1`. -/
theorem final1_4 (c : Dev nD) (hR : V c main_v2_1 = R) (hC : V c main_v3 = C) (hAdj : V c main_arg1 = Adj) (hWh : V c main_v2_0 = Wh) : (dat1 V c).arrAt 4 cfg1.N = G1 R C Adj Wh :=
  (dat1 V c).arrAt_eq_of_cover 4 (G1 R C Adj Wh) (fun t hf => flushed1_4_eq V R C Adj Wh c hR hC hAdj hWh t hf) cover1_4

end Arrays

/-- THE VALUE of the second kernel call: entry `(i, k)` of its output array after the region, from the arrays the region is
    entered with — the closing unit on the quotient of node `i`'s two-tile weighted sum against column `k` of the projected
    features by its two-tile normaliser. -/
theorem reg1_value (V : (c : Dev nD) → (b : Ref sig .tc) → Buf (Elt Ideal) ((c : Thread nD τ).loc b)) (c : Dev nD)
    (R : FVec Ideal S8192x1 .f32) (C : FVec Ideal S1x8192 .f32) (Adj : IVec S8192x8192 32) (Wh : FVec Ideal S8192x64 .bf16)
    (hR : V c main_v2_1 = R) (hC : V c main_v3 = C) (hAdj : V c main_arg1 = Adj) (hWh : V c main_v2_0 = Wh) (i : Fin 8192) (k : Fin 64) :
    (dat1 V c).arrAt 4 cfg1.N (ix2 i k)
      = Cert.Gat.eluKer (Ideal.div
          (Cert.Gat.rAcc1 (fun j => Cert.Gat.score (Adj (ix2 i j)) (Cert.Gat.leaky (R (ix2 i 0) + C (ix2 0 j)))) (fun j => Wh (ix2 j k)))
          (Cert.Gat.rL1 (fun j => Cert.Gat.score (Adj (ix2 i j)) (Cert.Gat.leaky (R (ix2 i 0) + C (ix2 0 j)))))) :=
  (congrFun (final1_4 V R C Adj Wh c hR hC hAdj hWh) (ix2 i k)).trans rfl

end Cert.KernelIdeal.Hand

end
-- ==== Proof.Layout.lean ====
/-
  Three re-layouts read at an index: the two halves of a column vector of 128 entries (rows 0–63 and rows 64–127),
  and a column of 8192 entries read as a row.
-/
import Idealize.ShloMosaic.Lib.Pipeline.Value
import Idealize.ShloMosaic.Lib.ValueIdx

noncomputable section

open Idealize.ShloMosaic Idealize.ShloMosaic.ValueIdx

namespace Cert.Gat

variable {α : Type}

/-- Entry `k` of the upper half of a 128-column is entry `k` of the column. -/
theorem slice_lo_apply (x : (⟨2, ![128, 1]⟩ : Shape).Idx → α)
    (h : (⟨2, ![128, 1]⟩ : Shape).Slices ![0, 0] ⟨2, ![64, 1]⟩) (k : Fin 64) :
    extractStridedSlice ⟨2, ![64, 1]⟩ ![0, 0] x h (ix2 k 0) = x (ix2 (⟨k.val, by omega⟩ : Fin 128) 0) :=
  extractStridedSlice_apply _ x h _ _ fun a => by
    match a with
    | ⟨0, _⟩ => simp
    | ⟨1, _⟩ => simp

/-- Entry `k` of the lower half of a 128-column is entry `64 + k` of the column. -/
theorem slice_hi_apply (x : (⟨2, ![128, 1]⟩ : Shape).Idx → α)
    (h : (⟨2, ![128, 1]⟩ : Shape).Slices ![64, 0] ⟨2, ![64, 1]⟩) (k : Fin 64) :
    extractStridedSlice ⟨2, ![64, 1]⟩ ![64, 0] x h (ix2 k 0) = x (ix2 (⟨64 + k.val, by omega⟩ : Fin 128) 0) :=
  extractStridedSlice_apply _ x h _ _ fun a => by
    match a with
    | ⟨0, _⟩ => simp
    | ⟨1, _⟩ => simp

/-- A column of 8192 entries recast as a row: entry `j` of the row is entry `j` of the column. -/
theorem col_as_row_apply (x : (⟨2, ![8192, 1]⟩ : Shape).Idx → α)
    (h : (⟨2, ![8192, 1]⟩ : Shape).ShapeCasts ⟨2, ![1, 8192]⟩) (j : Fin 8192) :
    shapeCast ⟨2, ![1, 8192]⟩ x h (ix2 0 j) = x (ix2 j 0) :=
  shapeCast_apply x h _ _ (by
    rw [Shape.rowMajor_val_two, Shape.rowMajor_val_two]
    simp)

end Cert.Gat

end
-- ==== Proof.KI.Value.lean ====
/-
  The idealized kernel's result array as a function of its four argument arrays.

  The first kernel leaves the projected features `wh = h · W` and, per node, the source term `wh i · a1` and the
  target term `wh j · a2` (`a1`, `a2` the two halves of the attention vector, cut out of it on the host); the
  third of these is recast from a column to a row before the second kernel reads it.  The second kernel's result,
  read element by element, is the two-tile running-maximum computation over the masked scores built from those terms
  and the adjacency matrix.  Put together, the result array is the specification's `kerOut` at the argument arrays.
-/
import proofs.«132961_j14972255994171_2_alg».proof.Proof.KI.Run
import proofs.«132961_j14972255994171_2_alg».proof.Proof.KI.Reg0Value
import proofs.«132961_j14972255994171_2_alg».proof.Proof.KI.Reg1Value
import proofs.«132961_j14972255994171_2_alg».proof.Proof.Layout
import proofs.«132961_j14972255994171_2_alg».proof.Proof.Algebra

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The four argument arrays of core `c`. -/
abbrev arr0 (c : Dev nD) : FVec Ideal S8192x128 .f32 := m ((c : Thread nD τ).loc main_arg0)
abbrev arr1 (c : Dev nD) : IVec S8192x8192 32 := m ((c : Thread nD τ).loc main_arg1)
abbrev arr2 (c : Dev nD) : FVec Ideal S128x64 .f32 := m ((c : Thread nD τ).loc main_arg2)
abbrev arr3 (c : Dev nD) : FVec Ideal S128x1 .f32 := m ((c : Thread nD τ).loc main_arg3)
/-- … and as functions of their coordinates. -/
abbrev argH (c : Dev nD) : Fin 8192 → Fin 128 → EReal := fun i d => arr0 m c (ix2 i d)
abbrev argAdj (c : Dev nD) : Fin 8192 → Fin 8192 → BitVec 32 := fun i j => arr1 m c (ix2 i j)
abbrev argW (c : Dev nD) : Fin 128 → Fin 64 → EReal := fun d k => arr2 m c (ix2 d k)
abbrev argA (c : Dev nD) : Fin 128 → EReal := fun r => arr3 m c (ix2 r 0)

/-- The first kernel's three results, as the second kernel's region finds them. -/
abbrev whFound (c : Dev nD) : FVec Ideal S8192x64 .bf16 := (dat0 (V1 m ρ) c).arrAt 4 cfg0.N
abbrev rowFound (c : Dev nD) : FVec Ideal S8192x1 .f32 := (dat0 (V1 m ρ) c).arrAt 5 cfg0.N
abbrev colFound (c : Dev nD) : FVec Ideal S1x8192 .f32 := shapeCast S1x8192 ((dat0 (V1 m ρ) c).arrAt 6 cfg0.N) shapeCasts_S8192x1_S1x8192

/-- The resident operand holds the projected features `h · W`. -/
theorem wh_read (c : Dev nD) (j : Fin 8192) (k : Fin 64) :
    whFound m ρ c (ix2 j k) = Cert.Gat.wh (argH m c) (argW m c) j k :=
  reg0_value4 (V1 m ρ) c (arr0 m c) (arr2 m c) (V1_main_arg0 m ρ c) (V1_main_arg2 m ρ c) j k

/-- The row operand holds each node's source term `wh i · a1`, `a1` the upper half of the attention vector. -/
theorem row_read (c : Dev nD) (i : Fin 8192) :
    rowFound m ρ c (ix2 i 0) = Cert.Gat.rowT (argH m c) (argW m c) (argA m c) i := by
  have h5 : rowFound m ρ c (ix2 i 0)
      = (∑ k : Fin 64, (∑ d : Fin 128, arr0 m c (ix2 i d) * arr2 m c (ix2 d k))
          * (extractStridedSlice S64x1 ![0, 0] (arr3 m c) slices_S128x1_S64x1_0_0) (ix2 k 0) : EReal) :=
    reg0_value5 (V1 m ρ) c (arr0 m c) (arr2 m c) _ (V1_main_arg0 m ρ c) (V1_main_arg2 m ρ c) (V1_main_v0 m ρ c) i
  rw [h5]
  unfold Cert.Gat.rowT Cert.Gat.wh Cert.Gat.a1
  exact Finset.sum_congr rfl fun k _ => by rw [Cert.Gat.slice_lo_apply]

/-- The column operand, the first kernel's third result recast as a row, holds each node's target term `wh j · a2`. -/
theorem col_read (c : Dev nD) (j : Fin 8192) :
    colFound m ρ c (ix2 0 j) = Cert.Gat.colT (argH m c) (argW m c) (argA m c) j := by
  unfold colFound
  rw [Cert.Gat.col_as_row_apply]
  have h6 : ((dat0 (V1 m ρ) c).arrAt 6 cfg0.N : FVec Ideal S8192x1 .f32) (ix2 j 0)
      = (∑ k : Fin 64, (∑ d : Fin 128, arr0 m c (ix2 j d) * arr2 m c (ix2 d k))
          * (extractStridedSlice S64x1 ![64, 0] (arr3 m c) slices_S128x1_S64x1_64_0) (ix2 k 0) : EReal) :=
    reg0_value6 (V1 m ρ) c (arr0 m c) (arr2 m c) _ (V1_main_arg0 m ρ c) (V1_main_arg2 m ρ c) (V1_main_v1 m ρ c) j
  rw [h6]
  unfold Cert.Gat.colT Cert.Gat.wh Cert.Gat.a2
  exact Finset.sum_congr rfl fun k _ => by rw [Cert.Gat.slice_hi_apply]

/-- **The kernel's result array**, element by element, is the two-tile computation of the specification at the
    argument arrays. -/
theorem ker_value (c : Dev nD) (i : Fin 8192) (k : Fin 64) :
    (dat1 (V3 m ρ) c).arrAt 4 cfg1.N (ix2 i k)
      = Cert.Gat.kerOut (argH m c) (argAdj m c) (argW m c) (argA m c) i k := by
  refine (reg1_value (V3 m ρ) c (rowFound m ρ c) (colFound m ρ c) (arr1 m c) (whFound m ρ c)
    (V3_main_v2_1 m ρ c) (V3_main_v3 m ρ c) (V3_main_arg1 m ρ c) (V3_main_v2_0 m ρ c) i k).trans ?_
  simp only [wh_read, row_read, col_read]
  rfl

end Cert.KernelIdeal.Hand

end
-- ==== Proof.Ref.Run.lean ====
/-
  The reference program's @main as the list of its fifty-eight host operations — the three module-local
  calls (the leaky unit with its select, the masking select, the exponential linear unit with its two
  selects) written out at their call sites over the calls' own buffers — and its run: every weakly fair
  execution terminates with the result buffer at one function `refG` of the four argument arrays, the
  arguments unchanged. `refG` is the composition of the operations, named stage by stage.
-/
import proofs.«132961_j14972255994171_2_alg».proof.ReferenceIdeal
import proofs.«132961_j14972255994171_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: thirteen of its own and the slope constant, the leaky
    unit's seven (its zero, the zero's broadcast, the comparison, the slope converted and broadcast, the
    product, the select), four more of its own, the masking select's three, eighteen of its own (the row
    maximum, the exponentials, the row sum, the quotient, the weighted sum), and the closing unit's fifteen. -/
abbrev ops : List (HloOp τ sig (Elt F)) :=
  [ binary main_arg0 main_arg2 main_v0 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    reshape main_v1 main_v2 rfl shapeCasts_S64x1_S64,
    unary main_arg3 main_v3 ((extractStridedSlice S64x1 ![64, 0] · slices_S128x1_S64x1_64_0) : (⟨S128x1, .f32⟩ : BufTy).Contents (Elt F) → (⟨S64x1, .f32⟩ : BufTy).Contents (Elt F)),
    reshape main_v3 main_v4 rfl shapeCasts_S64x1_S64,
    unary main_v2 main_v5 (broadcastInDim S64x1 ![0] bcast_S64_S64x1_0 : (⟨S64, .f32⟩ : BufTy).Contents (Elt F) → (⟨S64x1, .f32⟩ : BufTy).Contents (Elt F)),
    binary main_v0 main_v5 main_v6 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v7 (broadcastInDim S64x1 ![0] bcast_S64_S64x1_0 : (⟨S64, .f32⟩ : BufTy).Contents (Elt F) → (⟨S64x1, .f32⟩ : BufTy).Contents (Elt F)),
    binary main_v0 main_v7 main_v8 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v8 main_v9 ((transpose S1x8192 [1, 0] · transposes_S8192x1_S1x8192_1_0) : (⟨S8192x1, .f32⟩ : BufTy).Contents (Elt F) → (⟨S1x8192, .f32⟩ : BufTy).Contents (Elt F)),
    unary main_v6 main_v10 (broadcastInDim S8192x8192 ![0, 1] bcast_S8192x1_S8192x8192_0_1 : (⟨S8192x1, .f32⟩ : BufTy).Contents (Elt F) → (⟨S8192x8192, .f32⟩ : BufTy).Contents (Elt F)),
    unary main_v9 main_v11 (broadcastInDim S8192x8192 ![0, 1] bcast_S1x8192_S8192x8192_0_1 : (⟨S1x8192, .f32⟩ : BufTy).Contents (Elt F) → (⟨S8192x8192, .f32⟩ : BufTy).Contents (Elt F)),
    binary main_v10 main_v11 main_v12 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v12) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v12) main_call0.v4 mulf,
    TRef.ternary main_call0.v1 (.of main_v12) main_call0.v4 main_call0.call0.v0 select,
    nullary main_c (constantI S_ 32 0#32),
    unary main_c main_v14 (broadcastInDim S8192x8192 ![] bcast_S_S8192x8192 : (⟨S_, .i32⟩ : BufTy).Contents (Elt F) → (⟨S8192x8192, .i32⟩ : BufTy).Contents (Elt F)),
    binary main_arg1 main_v14 main_v15 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0) main_call1.v0 id,
    TRef.unary main_call1.v0 main_call1.v1 (broadcastInDim S8192x8192 ![] bcast_S_S8192x8192),
    TRef.ternary (.of main_v15) (.of main_v13) main_call1.v1 main_call1.v2 select,
    nullary main_cst_1 (constant S_ .f32 0xFF800000#32),
    binary main_v16 main_cst_1 main_v17 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v18 (broadcastInDim S8192 ![] bcast_S_S8192 : (⟨S_, .f32⟩ : BufTy).Contents (Elt F) → (⟨S8192, .f32⟩ : BufTy).Contents (Elt F)),
    binary main_v18 main_v17 main_v19 (maximumf : (⟨S8192, .f32⟩ : BufTy).Contents (Elt F) → (⟨S8192, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    unary main_v20 main_v21 (broadcastInDim S8192x8192 ![0, 1] bcast_S8192x1_S8192x8192_0_1 : (⟨S8192x1, .f32⟩ : BufTy).Contents (Elt F) → (⟨S8192x8192, .f32⟩ : BufTy).Contents (Elt F)),
    binary main_v16 main_v21 main_v22 (subf : (⟨S8192x8192, .f32⟩ : BufTy).Contents (Elt F) → (⟨S8192x8192, .f32⟩ : BufTy).Contents (Elt F) → (⟨S8192x8192, .f32⟩ : BufTy).Contents (Elt F)),
    unary main_v22 main_v23 (Host.exp : (⟨S8192x8192, .f32⟩ : BufTy).Contents (Elt F) → (⟨S8192x8192, .f32⟩ : BufTy).Contents (Elt F)),
    nullary main_cst_3 (constant S_ .f32 0x00000000#32),
    binary main_v23 main_cst_3 main_v24 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v24 main_v25 (broadcastInDim S8192x1 ![0] bcast_S8192_S8192x1_0 : (⟨S8192, .f32⟩ : BufTy).Contents (Elt F) → (⟨S8192x1, .f32⟩ : BufTy).Contents (Elt F)),
    unary main_v25 main_v26 (broadcastInDim S8192x8192 ![0, 1] bcast_S8192x1_S8192x8192_0_1 : (⟨S8192x1, .f32⟩ : BufTy).Contents (Elt F) → (⟨S8192x8192, .f32⟩ : BufTy).Contents (Elt F)),
    binary main_v23 main_v26 main_v27 (Host.divf : (⟨S8192x8192, .f32⟩ : BufTy).Contents (Elt F) → (⟨S8192x8192, .f32⟩ : BufTy).Contents (Elt F) → (⟨S8192x8192, .f32⟩ : BufTy).Contents (Elt F)),
    binary main_v27 main_v0 main_v28 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v28) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v28) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v28) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v28) main_call2.v7 main_call2.call1.v0 select ]

-- the program is one chain of fifty-eight sequenced steps; re-associating the sequencing descends one level per step
set_option maxRecDepth 4096 in
/-- @main is that straight line: the functions' definitions unfolded at their calls, both sides are one chain
    of host steps once sequencing is reassociated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., reshape_bufs_sub .., unary_bufs_sub .., reshape_bufs_sub .., unary_bufs_sub ..,
    binary_bufs_sub .., unary_bufs_sub .., binary_bufs_sub .., unary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one function of the arguments, stage by stage

Each definition is one group of the operations above, over the contents of the buffers it reads; `refGF` composes them
in the program's order. Everything is for any float values. -/

/-- The projected features: the first product. -/
def gWh (x0 : FVec F S8192x128 .f32) (x2 : FVec F S128x64 .f32) : FVec F S8192x64 .f32 :=
  Host.dotGeneral dot_S8192x128_S128x64_S8192x64_1_0_0_1_n_n none x0 x2

/-- The first half of the attention vector (rows 0 to 63), sliced, flattened and made a column again. -/
def gA1 (x3 : FVec F S128x1 .f32) : FVec F S64x1 .f32 :=
  broadcastInDim S64x1 ![0] bcast_S64_S64x1_0
    (shapeCast S64 (extractStridedSlice S64x1 ![0, 0] x3 slices_S128x1_S64x1_0_0) shapeCasts_S64x1_S64)

/-- The second half (rows 64 to 127), likewise. -/
def gA2 (x3 : FVec F S128x1 .f32) : FVec F S64x1 .f32 :=
  broadcastInDim S64x1 ![0] bcast_S64_S64x1_0
    (shapeCast S64 (extractStridedSlice S64x1 ![64, 0] x3 slices_S128x1_S64x1_64_0) shapeCasts_S64x1_S64)

/-- A node's term: the projected features against one half of the attention vector. -/
def gTerm (w : FVec F S8192x64 .f32) (a : FVec F S64x1 .f32) : FVec F S8192x1 .f32 :=
  Host.dotGeneral dot_S8192x64_S64x1_S8192x1_1_0_0_1_n_n none w a

/-- The pair sums: the source terms along the rows plus the target terms, transposed, along the columns. -/
def gE (r c : FVec F S8192x1 .f32) : FVec F S8192x8192 .f32 :=
  addf (broadcastInDim S8192x8192 ![0, 1] bcast_S8192x1_S8192x8192_0_1 r)
    (broadcastInDim S8192x8192 ![0, 1] bcast_S1x8192_S8192x8192_0_1
      (transpose S1x8192 [1, 0] c transposes_S8192x1_S1x8192_1_0))

/-- The leaky unit: the entry where it is at least zero, the slope times it elsewhere. -/
def gLeaky (e : FVec F S8192x8192 .f32) : FVec F S8192x8192 .f32 :=
  select (cmpf .oge e (broadcastInDim S8192x8192 ![] bcast_S_S8192x8192 (constant S_ .f32 0x00000000#32))) e
    (mulf (broadcastInDim S8192x8192 ![] bcast_S_S8192x8192 (constant S_ .f32 0x3E4CCCCD#32)) e)

/-- The mask: the entry where the adjacency word is positive, the large negative constant elsewhere. -/
def gMask (x1 : IVec S8192x8192 32) (e : FVec F S8192x8192 .f32) : FVec F S8192x8192 .f32 :=
  select (cmpi .sgt x1 (broadcastInDim S8192x8192 ![] bcast_S_S8192x8192 (constantI S_ 32 0#32))) e
    (broadcastInDim S8192x8192 ![] bcast_S_S8192x8192 (constant S_ .f32 0xD9FFCB9E#32))

/-- Each row's maximum, joined with minus infinity. -/
def gMax (s : FVec F S8192x8192 .f32) : FVec F S8192 .f32 :=
  maximumf (broadcastInDim S8192 ![] bcast_S_S8192 (constant S_ .f32 0xFF800000#32))
    (Host.reduce FloatOps.maximumf s (constant S_ .f32 0xFF800000#32) reducesTo_S8192x8192_S8192_d1 h_S_)

/-- The exponentials of the scores less their row's maximum. -/
def gP (s : FVec F S8192x8192 .f32) : FVec F S8192x8192 .f32 :=
  Host.exp (subf s (broadcastInDim S8192x8192 ![0, 1] bcast_S8192x1_S8192x8192_0_1
    (broadcastInDim S8192x1 ![0] bcast_S8192_S8192x1_0 (gMax s))))

/-- Each row's sum. -/
def gL (p : FVec F S8192x8192 .f32) : FVec F S8192 .f32 :=
  Host.reduceAdd p (constant S_ .f32 0x00000000#32) reducesTo_S8192x8192_S8192_d1 h_S_

/-- The exponentials over their row's sum. -/
def gAtt (p : FVec F S8192x8192 .f32) : FVec F S8192x8192 .f32 :=
  Host.divf p (broadcastInDim S8192x8192 ![0, 1] bcast_S8192x1_S8192x8192_0_1
    (broadcastInDim S8192x1 ![0] bcast_S8192_S8192x1_0 (gL p)))

/-- The weighted sum of the projected features. -/
def gHp (att : FVec F S8192x8192 .f32) (w : FVec F S8192x64 .f32) : FVec F S8192x64 .f32 :=
  Host.dotGeneral dot_S8192x8192_S8192x64_S8192x64_1_0_0_1_n_n none att w

/-- The closing unit: the entry where it is positive, one times `exp − 1` of the entry (zeroed where positive) elsewhere. -/
def gElu (x : FVec F S8192x64 .f32) : FVec F S8192x64 .f32 :=
  select (cmpf .ogt x (broadcastInDim S8192x64 ![] bcast_S_S8192x64 (constant S_ .f32 0x00000000#32))) x
    (mulf (broadcastInDim S8192x64 ![] bcast_S_S8192x64 (constant S_ .f32 0x3F800000#32))
      (Host.expm1 (select (cmpf .ogt x (broadcastInDim S8192x64 ![] bcast_S_S8192x64 (constant S_ .f32 0x00000000#32)))
        (broadcastInDim S8192x64 ![] bcast_S_S8192x64 (constant S_ .f32 0x00000000#32)) x)))

/-- The masked scores. -/
def gScore (x0 : FVec F S8192x128 .f32) (x1 : IVec S8192x8192 32) (x2 : FVec F S128x64 .f32) (x3 : FVec F S128x1 .f32) :
    FVec F S8192x8192 .f32 :=
  gMask x1 (gLeaky (gE (gTerm (gWh x0 x2) (gA1 x3)) (gTerm (gWh x0 x2) (gA2 x3))))

/-- The program's result as one function of its four arguments, for any float values. -/
def refGF (x0 : FVec F S8192x128 .f32) (x1 : IVec S8192x8192 32) (x2 : FVec F S128x64 .f32) (x3 : FVec F S128x1 .f32) :
    FVec F S8192x64 .f32 :=
  gElu (gHp (gAtt (gP (gScore x0 x1 x2 x3))) (gWh x0 x2))

set_option maxRecDepth 8192 in
set_option maxHeartbeats 1600000 in
/-- The fold at the result buffer is `refGF` of the arguments: each operation's result at its own buffer is its
    function's value, at any other buffer what was there; the typed references' casts are the identity at these
    literal references. -/
theorem out_eq (V : Valuation τ sig (Elt F)) :
    after ops V (main_v29 : DevRef τ sig)
      = refGF (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt F)) :
    after ops V (main_arg0 : DevRef τ sig) = V (main_arg0 : DevRef τ sig) := by
  after_results_simp
set_option maxRecDepth 8192 in
theorem arg1_eq (V : Valuation τ sig (Elt F)) :
    after ops V (main_arg1 : DevRef τ sig) = V (main_arg1 : DevRef τ sig) := by
  after_results_simp
set_option maxRecDepth 8192 in
theorem arg2_eq (V : Valuation τ sig (Elt F)) :
    after ops V (main_arg2 : DevRef τ sig) = V (main_arg2 : DevRef τ sig) := by
  after_results_simp
set_option maxRecDepth 8192 in
theorem arg3_eq (V : Valuation τ sig (Elt F)) :
    after ops V (main_arg3 : DevRef τ sig) = V (main_arg3 : DevRef τ sig) := by
  after_results_simp

/-- On every device, for any float values, from any memory with zero counters: every weakly fair execution of
    @main terminates with the result at `refGF` of the arguments and the arguments unchanged. -/
theorem runF (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v29) = refGF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v29).trans (out_eq _), (h c main_arg0).trans (arg0_eq _),
      (h c main_arg1).trans (arg1_eq _), (h c main_arg2).trans (arg2_eq _), (h c main_arg3).trans (arg3_eq _)⟩)
    (run_main m ρ)

/-- The reference's result as one function of its four argument arrays, at the ideal values. -/
def refG (x0 : FVec Ideal S8192x128 .f32) (x1 : IVec S8192x8192 32) (x2 : FVec Ideal S128x64 .f32) (x3 : FVec Ideal S128x1 .f32) :
    FVec Ideal S8192x64 .f32 :=
  refGF x0 x1 x2 x3

/-- The run at the ideal values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  runF m ρ

end Cert.ReferenceIdeal.RefValue

end
-- ==== Proof.Ref.Value.lean ====
/-
  The reference's result read at an index: `refG` at row `i`, column `k` is the one-pass formula `refOut` of the
  specification, over the four argument arrays read as curried functions. Each stage of `refG` is read at an
  index by one small lemma; the chain of them is the theorem. No finiteness is needed: every step is the
  operation's own reading.
-/
import proofs.«132961_j14972255994171_2_alg».proof.Proof.Ref.Run
import proofs.«132961_j14972255994171_2_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx
open scoped BigOperators

/-! ## The products -/

/-- The projected features at (i, k): the sum over the 128 input features. -/
theorem gWh_apply (x0 : FVec Ideal S8192x128 .f32) (x2 : FVec Ideal S128x64 .f32) (i : Fin 8192) (k : Fin 64) :
    gWh x0 x2 (ix2 i k) = ∑ d : Fin 128, x0 (ix2 i d) * x2 (ix2 d k) :=
  StackMember.dotGeneral_plain_apply none x0 x2 i k

/-- A node's term at row i: the sum over the 64 projected features. -/
theorem gTerm_apply (w : FVec Ideal S8192x64 .f32) (a : FVec Ideal S64x1 .f32) (i : Fin 8192) :
    gTerm w a (ix2 i 0) = ∑ k : Fin 64, w (ix2 i k) * a (ix2 k 0) :=
  StackMember.dotGeneral_plain_apply none w a i 0

/-- The weighted sum at (i, k): the sum over the 8192 nodes. -/
theorem gHp_apply (att : FVec Ideal S8192x8192 .f32) (w : FVec Ideal S8192x64 .f32) (i : Fin 8192) (k : Fin 64) :
    gHp att w (ix2 i k) = ∑ j : Fin 8192, att (ix2 i j) * w (ix2 j k) :=
  StackMember.dotGeneral_plain_apply none att w i k

/-! ## The halves of the attention vector -/

/-- The first half at row k of its column is the vector's row k. -/
theorem gA1_apply (x3 : FVec Ideal S128x1 .f32) (k : Fin 64) :
    gA1 x3 (ix2 k 0) = x3 (ix2 ⟨k.val, by omega⟩ 0) := by
  unfold gA1
  refine (broadcastInDim_apply _ _ _ (ix2 k 0) (ix1 k) fun a => ?_).trans ?_
  · match a with | ⟨0, _⟩ => rfl
  refine (shapeCast_apply _ _ (ix1 k) (ix2 k 0) ?_).trans ?_
  · rw [Shape.rowMajor_val_two, Shape.rowMajor_val_one]
    show k.val * 1 + 0 = k.val
    omega
  exact slice2_axis0_apply 0 x3 _ k 0 _ (by show k.val = 0 + k.val; omega)

/-- The second half at row k of its column is the vector's row 64 + k. -/
theorem gA2_apply (x3 : FVec Ideal S128x1 .f32) (k : Fin 64) :
    gA2 x3 (ix2 k 0) = x3 (ix2 ⟨64 + k.val, by omega⟩ 0) := by
  unfold gA2
  refine (broadcastInDim_apply _ _ _ (ix2 k 0) (ix1 k) fun a => ?_).trans ?_
  · match a with | ⟨0, _⟩ => rfl
  refine (shapeCast_apply _ _ (ix1 k) (ix2 k 0) ?_).trans ?_
  · rw [Shape.rowMajor_val_two, Shape.rowMajor_val_one]
    show k.val * 1 + 0 = k.val
    omega
  exact slice2_axis0_apply 64 x3 _ k 0 _ rfl

/-! ## The pair sums -/

/-- The pair sum at (i, j): the source term of i plus the target term of j. -/
theorem gE_apply (r c : FVec Ideal S8192x1 .f32) (i j : Fin 8192) :
    gE r c (ix2 i j) = r (ix2 i 0) + c (ix2 j 0) := by
  unfold gE
  rw [addf_apply]
  congr 1
  · refine broadcastInDim_apply _ _ _ (ix2 i j) (ix2 i 0) fun a => ?_
    match a with
    | ⟨0, _⟩ => rfl
    | ⟨1, _⟩ => rfl
  · refine (broadcastInDim_apply _ _ _ (ix2 i j) (ix2 0 j) fun a => ?_).trans ?_
    · match a with
      | ⟨0, _⟩ => rfl
      | ⟨1, _⟩ => rfl
    exact transpose_ix2_apply c _ 0 j

/-! ## The pointwise units -/

/-- The leaky unit at an index is the specification's, of the entry. -/
theorem gLeaky_apply (e : FVec Ideal S8192x8192 .f32) (j : S8192x8192.Idx) :
    gLeaky e j = Cert.Gat.leaky (e j) := rfl

/-- The mask at an index is the specification's score, of the adjacency word and the entry. -/
theorem gMask_apply (x1 : IVec S8192x8192 32) (e : FVec Ideal S8192x8192 .f32) (j : S8192x8192.Idx) :
    gMask x1 e j = Cert.Gat.score (x1 j) (e j) := rfl

/-- The closing unit at an index is the specification's, of the entry. -/
theorem gElu_apply (x : FVec Ideal S8192x64 .f32) (j : S8192x64.Idx) :
    gElu x j = Cert.Gat.eluRef (x j) := rfl

/-! ## The row reductions -/

/-- The source index over row i whose column is j. -/
theorem lift_row (h : S8192x8192.Reduces [1] S8192) (i j : Fin 8192) : h.lift (ix1 i) j = ix2 i j :=
  funext fun c => Fin.ext (match c with | ⟨0, _⟩ => rfl | ⟨1, _⟩ => rfl)

/-- A row's maximum: minus infinity joined with the fold of `max` over the row, from minus infinity. -/
theorem gMax_apply (s : FVec Ideal S8192x8192 .f32) (i : Fin 8192) :
    gMax s (ix1 i) = max Cert.Gat.negInf (Finset.univ.fold max Cert.Gat.negInf (fun j : Fin 8192 => s (ix2 i j))) := by
  have h : S8192x8192.Reduces [1] S8192 := by decide
  unfold gMax
  rw [maximumf_apply]
  refine congrArg (max Cert.Gat.negInf) ?_
  rw [Host.reduce_eq_fold_single FloatOps.maximumf s _ reducesTo_S8192x8192_S8192_d1 h h_S_ (ix1 i)]
  exact Finset.fold_congr (fun j _ => congrArg s (lift_row h i j))

/-- The exponentials at (i, j): of the score less the row's maximum. -/
theorem gP_apply (s : FVec Ideal S8192x8192 .f32) (i j : Fin 8192) :
    gP s (ix2 i j) = Ideal.exp (s (ix2 i j) - gMax s (ix1 i)) := by
  unfold gP
  show Ideal.exp (s (ix2 i j) - _) = _
  refine congrArg (fun z => Ideal.exp (s (ix2 i j) - z)) ?_
  refine (broadcastInDim_apply _ _ _ (ix2 i j) (ix2 i 0) fun a => ?_).trans ?_
  · match a with
    | ⟨0, _⟩ => rfl
    | ⟨1, _⟩ => rfl
  refine broadcastInDim_apply _ _ _ (ix2 i 0) (ix1 i) fun a => ?_
  match a with | ⟨0, _⟩ => rfl

/-- A row's sum: zero plus the sum over the row. -/
theorem gL_apply (p : FVec Ideal S8192x8192 .f32) (i : Fin 8192) :
    gL p (ix1 i) = Cert.Gat.zeroF + ∑ j : Fin 8192, p (ix2 i j) := by
  have h : S8192x8192.Reduces [1] S8192 := by decide
  unfold gL Host.reduceAdd
  rw [Ideal.hostReduceAdd_def, Ideal.hostReduceAdd_single reducesTo_S8192x8192_S8192_d1 h p _ (ix1 i)]
  refine congrArg (Cert.Gat.zeroF + ·) ?_
  exact Finset.sum_congr rfl (fun j _ => congrArg p (lift_row h i j))

/-- The quotient at (i, j): the exponential over the row's sum. -/
theorem gAtt_apply (p : FVec Ideal S8192x8192 .f32) (i j : Fin 8192) :
    gAtt p (ix2 i j) = Ideal.div (p (ix2 i j)) (gL p (ix1 i)) := by
  unfold gAtt
  show Ideal.div (p (ix2 i j)) _ = _
  refine congrArg (Ideal.div (p (ix2 i j))) ?_
  refine (broadcastInDim_apply _ _ _ (ix2 i j) (ix2 i 0) fun a => ?_).trans ?_
  · match a with
    | ⟨0, _⟩ => rfl
    | ⟨1, _⟩ => rfl
  refine broadcastInDim_apply _ _ _ (ix2 i 0) (ix1 i) fun a => ?_
  match a with | ⟨0, _⟩ => rfl

/-! ## The chain -/

section Chain
variable (x0 : FVec Ideal S8192x128 .f32) (x1 : IVec S8192x8192 32) (x2 : FVec Ideal S128x64 .f32) (x3 : FVec Ideal S128x1 .f32)

/-- The four argument arrays as the specification's curried functions. -/
local notation "hF" => (fun (i : Fin 8192) (d : Fin 128) => x0 (ix2 i d))
local notation "adjF" => (fun (i j : Fin 8192) => x1 (ix2 i j))
local notation "wF" => (fun (d : Fin 128) (k : Fin 64) => x2 (ix2 d k))
local notation "aF" => (fun (r : Fin 128) => x3 (ix2 r 0))

theorem wh_eq (i : Fin 8192) (k : Fin 64) : gWh x0 x2 (ix2 i k) = Cert.Gat.wh hF wF i k :=
  gWh_apply x0 x2 i k

theorem row_eq (i : Fin 8192) : gTerm (gWh x0 x2) (gA1 x3) (ix2 i 0) = Cert.Gat.rowT hF wF aF i := by
  rw [gTerm_apply]
  exact Finset.sum_congr rfl fun k _ => by rw [wh_eq, gA1_apply]; rfl

theorem col_eq (j : Fin 8192) : gTerm (gWh x0 x2) (gA2 x3) (ix2 j 0) = Cert.Gat.colT hF wF aF j := by
  rw [gTerm_apply]
  exact Finset.sum_congr rfl fun k _ => by rw [wh_eq, gA2_apply]; rfl

theorem score_eq (i j : Fin 8192) : gScore x0 x1 x2 x3 (ix2 i j) = Cert.Gat.sc hF adjF wF aF i j := by
  unfold gScore
  rw [gMask_apply, gLeaky_apply, gE_apply, row_eq, col_eq]
  rfl

theorem max_eq (i : Fin 8192) : gMax (gScore x0 x1 x2 x3) (ix1 i) = Cert.Gat.refMax hF adjF wF aF i := by
  rw [gMax_apply]
  exact congrArg (max Cert.Gat.negInf) (Finset.fold_congr fun j _ => score_eq x0 x1 x2 x3 i j)

theorem p_eq (i j : Fin 8192) : gP (gScore x0 x1 x2 x3) (ix2 i j) = Cert.Gat.refP hF adjF wF aF i j := by
  rw [gP_apply, score_eq, max_eq]
  rfl

theorem l_eq (i : Fin 8192) : gL (gP (gScore x0 x1 x2 x3)) (ix1 i) = Cert.Gat.refL hF adjF wF aF i := by
  rw [gL_apply]
  exact congrArg (Cert.Gat.zeroF + ·) (Finset.sum_congr rfl fun j _ => p_eq x0 x1 x2 x3 i j)

theorem hp_eq (i : Fin 8192) (k : Fin 64) :
    gHp (gAtt (gP (gScore x0 x1 x2 x3))) (gWh x0 x2) (ix2 i k) = Cert.Gat.refHp hF adjF wF aF i k := by
  rw [gHp_apply]
  exact Finset.sum_congr rfl fun j _ => by rw [gAtt_apply, p_eq, l_eq, wh_eq]

end Chain

/-- The reference's result at (i, k) is the specification's one-pass formula of the four arguments. -/
theorem refG_eq (x0 : FVec Ideal S8192x128 .f32) (x1 : IVec S8192x8192 32) (x2 : FVec Ideal S128x64 .f32) (x3 : FVec Ideal S128x1 .f32)
    (i : Fin 8192) (k : Fin 64) :
    refG x0 x1 x2 x3 (ValueIdx.ix2 i k)
      = Cert.Gat.refOut (fun i d => x0 (ValueIdx.ix2 i d)) (fun i j => x1 (ValueIdx.ix2 i j)) (fun d k => x2 (ValueIdx.ix2 d k))
          (fun r => x3 (ValueIdx.ix2 r 0)) i k := by
  unfold refG refGF
  rw [gElu_apply, hp_eq]
  rfl

end Cert.ReferenceIdeal.RefValue

end
-- ==== Proof.Finite.lean ====
import proofs.«132961_j14972255994171_2_alg».proof.Defs
import proofs.«132961_j14972255994171_2_alg».proof.Proof.Gen.Pre_finite_inputs
import Idealize.ShloMosaic.Lib.ReduceAll
import Idealize.ShloMosaic.Lib.ValueIdx

noncomputable section

namespace Cert.Gat.Finite

open Idealize.ShloMosaic Idealize.ShloMosaic.ValueIdx Idealize.SL.Sem

/-- The rank-0 shape has one index. -/
instance : Subsingleton Cert.Pre_finite_inputs.S_.Idx := ⟨fun a b => funext fun d => d.elim0⟩

/-- The binary32 word `0x7F800000` denotes plus infinity. -/
theorem ofBits_inf : Ideal.ofBits .f32 0x7F800000#32 = ⊤ := by simp [Ideal.ofBits, Ideal.ieee]

/-- An extended real whose absolute value is below plus infinity is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  change Ideal.cmp .olt (max x (-x)) (Ideal.ofBits .f32 0x7F800000#32) = 1#1 at h
  rw [ofBits_inf] at h
  have hlt : max x (-x) < ⊤ := by
    by_contra hn
    unfold Ideal.cmp at h
    simp [hn] at h
  induction x using EReal.rec with
  | bot => simp at hlt
  | coe r => exact ⟨r, rfl⟩
  | top => simp at hlt

/-- Under the precondition every entry of the features, the weights and the attention vector is a real number. -/
theorem real_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
      (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg2) j = (r : EReal))
    ∧ (∀ j, ∃ r : ℝ, m ((c.tc : Thread Cert.KernelIdeal.nD Cert.KernelIdeal.τ).loc Cert.KernelIdeal.main_arg3) j = (r : EReal)) := by
  have h := congrFun (hpre c) ValueIdx.ix0
  dsimp only [Cert.Pre_finite_inputs.fn] at h
  obtain ⟨h02, h3⟩ := IntOp.andi_eq_one.1 h
  obtain ⟨h0, h2⟩ := IntOp.andi_eq_one.1 h02
  exact ⟨fun j => real_of_abs_lt _ (Host.reduce_andi_all _ _ _ _ ix0 h0 j),
    fun j => real_of_abs_lt _ (Host.reduce_andi_all _ _ _ _ ix0 h2 j),
    fun j => real_of_abs_lt _ (Host.reduce_andi_all _ _ _ _ ix0 h3 j)⟩

end Cert.Gat.Finite

end
-- ==== Proof.lean ====
/-
  The certificate of a graph-attention layer: a two-kernel program — a projection `wh = h · W` with each node's
  source and target terms, then a masked soft-max over every node's neighbours computed tile by tile with a running
  maximum, normaliser and weighted sum, closed by an exponential linear unit — against the plain one-pass formula.

  Frames.  Each of the two kernel programs (the word-level one and its reading over the extended reals) is a launch
  of two pipelined regions between stretches of host operations.  Per region the body is run once per grid point:
  the first kernel's one control case, the second kernel's two (the first column tile of a row block, where the
  running state is reset, and the last, where the quotient is written out); the running state lives in three scratch
  buffers whose contents after every point are tracked.  The reference is host operations only.

  Values.  Over the extended reals the kernel program's result array is read off the regions' write-backs element by
  element (`ker_value`) and the reference's off its run (`refG_eq`); the precondition makes every float input a real
  number (`real_of_pre`), and on real inputs the two computations are one function (`kerOut_eq_refOut`): rescaling
  by `exp (m_old − m_new)` turns the first tile's sums into the row's, the maximum over a row is the maximum of the
  maxima over its tiles, and the normaliser is positive so the quotient may be taken before or after the weighted sum.
-/
import proofs.«132961_j14972255994171_2_alg».proof.Defs
import proofs.«132961_j14972255994171_2_alg».proof.Proof.Gen.Kernel
import proofs.«132961_j14972255994171_2_alg».proof.Proof.Gen.KernelIdeal
import proofs.«132961_j14972255994171_2_alg».proof.Proof.Gen.ReferenceIdeal
import proofs.«132961_j14972255994171_2_alg».proof.Proof.Gen.Pre_finite_inputs
import proofs.«132961_j14972255994171_2_alg».proof.Proof.K.Run
import proofs.«132961_j14972255994171_2_alg».proof.Proof.KI.Run
import proofs.«132961_j14972255994171_2_alg».proof.Proof.KI.Value
import proofs.«132961_j14972255994171_2_alg».proof.Proof.Ref.Value
import proofs.«132961_j14972255994171_2_alg».proof.Proof.Finite
import proofs.«132961_j14972255994171_2_alg».proof.Proof.Algebra

noncomputable section

/-! ## The claims -/

namespace Cert.Proof

open Idealize.ShloMosaic Idealize.SL.Sem Idealize.ShloMosaic.ValueIdx

/-- The word-level program runs to the end, faults nowhere and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.run m ρ)

/-- From memories agreeing on the arguments both programs end, the kernel's result array holding, element by element,
    the two-tile computation and the reference's the one-pass computation of the same real inputs: one function. -/
theorem algebraic : Cert.algebraic_KernelIdeal_ReferenceIdeal := by
  intro m ρ m' ρ' hpre hagree
  refine ⟨fun c => (Cert.KernelIdeal.Hand.dat1 (Cert.KernelIdeal.Hand.V3 m ρ) c).arrAt 4 Cert.KernelIdeal.cfg1.N,
    Cert.KernelIdeal.Hand.run_vals m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2]
  funext idx
  obtain ⟨i, k, rfl⟩ : ∃ (i : Fin 8192) (k : Fin 64), idx = ix2 i k := ⟨idx 0, idx 1, eq_ix2 idx⟩
  obtain ⟨h0, h2, h3⟩ := Cert.Gat.Finite.real_of_pre m hpre c
  rw [Cert.ReferenceIdeal.RefValue.refG_eq]
  refine Eq.trans ?_ (Cert.KernelIdeal.Hand.ker_value m ρ c i k).symm
  exact (Cert.Gat.kerOut_eq_refOut _ _ _ _ (fun i d => h0 _) (fun d k => h2 _) (fun r => h3 _) i k).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
